-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x256x256 : Shape := ⟨4, ![4, 16, 256, 256]⟩
abbrev S_ : Shape := ⟨0, ![]⟩

class Facts : Prop where
  bcast_S_S4x16x256x256 : S_.BroadcastsInDim S4x16x256x256 (![] : Fin 0 → Fin S4x16x256x256.rank)
  reducesTo_S4x16x256x256_S_d0_1_2_3 : S4x16x256x256.ReducesTo [0, 1, 2, 3] S_
  h_S_ : 0 < S_.numel

variable [Facts]

def fn {F : FTy → Type} [FloatOps F] (main_arg0 : FVec F S4x16x256x256 .f32) (main_arg1 : FVec F S4x16x256x256 .f32) : IVec S_ 1 :=
  let main_v0 : FVec F S4x16x256x256 .f32 := Host.absf main_arg0
  let main_cst : FVec F S_ .f32 := constant S_ .f32 0x7F800000#32
  let main_v1 : FVec F S4x16x256x256 .f32 := broadcastInDim S4x16x256x256 ![] bcast_S_S4x16x256x256 main_cst
  let main_v2 : IVec S4x16x256x256 1 := cmpf .olt main_v0 main_v1
  let main_c : IVec S_ 1 := constantI S_ 1 1#1
  let main_v3 : IVec S_ 1 := (fun x v => Host.reduce IntOp.andi x v reducesTo_S4x16x256x256_S_d0_1_2_3 h_S_) main_v2 main_c
  let main_v4 : FVec F S4x16x256x256 .f32 := Host.absf main_arg1
  let main_cst_0 : FVec F S_ .f32 := constant S_ .f32 0x7F800000#32
  let main_v5 : FVec F S4x16x256x256 .f32 := broadcastInDim S4x16x256x256 ![] bcast_S_S4x16x256x256 main_cst_0
  let main_v6 : IVec S4x16x256x256 1 := cmpf .olt main_v4 main_v5
  let main_c_1 : IVec S_ 1 := constantI S_ 1 1#1
  let main_v7 : IVec S_ 1 := (fun x v => Host.reduce IntOp.andi x v reducesTo_S4x16x256x256_S_d0_1_2_3 h_S_) main_v6 main_c_1
  let main_v8 : IVec S_ 1 := andi main_v3 main_v7
  main_v8
-- ==== Kernel.lean ====
abbrev S4x16x256x256 : Shape := ⟨4, ![4, 16, 256, 256]⟩
abbrev S64x256x256 : Shape := ⟨3, ![64, 256, 256]⟩
abbrev S64x9x256x256 : Shape := ⟨4, ![64, 9, 256, 256]⟩
abbrev S4x256x256 : Shape := ⟨3, ![4, 256, 256]⟩
abbrev S4x9x256x256 : Shape := ⟨4, ![4, 9, 256, 256]⟩
abbrev S1x256x256 : Shape := ⟨3, ![1, 256, 256]⟩
abbrev S256x256 : Shape := ⟨2, ![256, 256]⟩
abbrev S1x256 : Shape := ⟨2, ![1, 256]⟩
abbrev S255x256 : Shape := ⟨2, ![255, 256]⟩
abbrev S256x1 : Shape := ⟨2, ![256, 1]⟩
abbrev S256x255 : Shape := ⟨2, ![256, 255]⟩
abbrev S1x1x256x256 : Shape := ⟨4, ![1, 1, 256, 256]⟩
abbrev S4x16x9x256x256 : Shape := ⟨5, ![4, 16, 9, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x16x256x256, .f32⟩
  | .hbm, ⟨1, _⟩ => ⟨S4x16x256x256, .f32⟩
  | .hbm, ⟨2, _⟩ => ⟨S64x256x256, .f32⟩
  | .hbm, ⟨3, _⟩ => ⟨S64x256x256, .f32⟩
  | .hbm, ⟨4, _⟩ => ⟨S64x9x256x256, .f32⟩
  | .hbm, ⟨5, _⟩ => ⟨S64x9x256x256, .f32⟩
  | .hbm, ⟨6, _⟩ => ⟨S4x16x9x256x256, .f32⟩
  | .hbm, ⟨7, _⟩ => ⟨S4x16x9x256x256, .f32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x9x256x256, .f32⟩
  | .local _ .vmem, ⟨5, _⟩ => ⟨S4x9x256x256, .f32⟩
  | .local _ .vmem, ⟨6, _⟩ => ⟨S4x9x256x256, .f32⟩
  | .local _ .vmem, ⟨7, _⟩ => ⟨S4x9x256x256, .f32⟩
  | _, _ => ⟨S4x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x9x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x9x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x256x256_S64x256x256 : S4x16x256x256.ShapeCasts S64x256x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  slices_S256x256_o0_0_S255x256 : S256x256.Slices ![0, 0] S255x256
  concatenates_S1x256_S255x256_S256x256_d0 : Shape.Concatenates [S1x256, S255x256] S256x256 0
  slices_S256x256_o0_0_S256x255 : S256x256.Slices ![0, 0] S256x255
  concatenates_S256x1_S256x255_S256x256_d1 : Shape.Concatenates [S256x1, S256x255] S256x256 1
  inb_S4x9x256x256_S1x1x256x256_0_0_0_0 : ∀ a, (![0, 0, 0, 0] : Fin 4 → Nat) a + S1x1x256x256.size a ≤ S4x9x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S4x9x256x256_S1x1x256x256_0_1_0_0 : ∀ a, (![0, 1, 0, 0] : Fin 4 → Nat) a + S1x1x256x256.size a ≤ S4x9x256x256.size a
  slices_S256x256_o0_1_S256x255 : S256x256.Slices ![0, 1] S256x255
  concatenates_S256x255_S256x1_S256x256_d1 : Shape.Concatenates [S256x255, S256x1] S256x256 1
  inb_S4x9x256x256_S1x1x256x256_0_2_0_0 : ∀ a, (![0, 2, 0, 0] : Fin 4 → Nat) a + S1x1x256x256.size a ≤ S4x9x256x256.size a
  inb_S4x9x256x256_S1x1x256x256_0_3_0_0 : ∀ a, (![0, 3, 0, 0] : Fin 4 → Nat) a + S1x1x256x256.size a ≤ S4x9x256x256.size a
  inb_S4x9x256x256_S1x1x256x256_0_4_0_0 : ∀ a, (![0, 4, 0, 0] : Fin 4 → Nat) a + S1x1x256x256.size a ≤ S4x9x256x256.size a
  inb_S4x9x256x256_S1x1x256x256_0_5_0_0 : ∀ a, (![0, 5, 0, 0] : Fin 4 → Nat) a + S1x1x256x256.size a ≤ S4x9x256x256.size a
  slices_S256x256_o1_0_S255x256 : S256x256.Slices ![1, 0] S255x256
  concatenates_S255x256_S1x256_S256x256_d0 : Shape.Concatenates [S255x256, S1x256] S256x256 0
  inb_S4x9x256x256_S1x1x256x256_0_6_0_0 : ∀ a, (![0, 6, 0, 0] : Fin 4 → Nat) a + S1x1x256x256.size a ≤ S4x9x256x256.size a
  inb_S4x9x256x256_S1x1x256x256_0_7_0_0 : ∀ a, (![0, 7, 0, 0] : Fin 4 → Nat) a + S1x1x256x256.size a ≤ S4x9x256x256.size a
  inb_S4x9x256x256_S1x1x256x256_0_8_0_0 : ∀ a, (![0, 8, 0, 0] : Fin 4 → Nat) a + S1x1x256x256.size a ≤ S4x9x256x256.size a
  inb_S4x256x256_S1x256x256_1_0_0 : ∀ a, (![1, 0, 0] : Fin 3 → Nat) a + S1x256x256.size a ≤ S4x256x256.size a
  inb_S4x9x256x256_S1x1x256x256_1_0_0_0 : ∀ a, (![1, 0, 0, 0] : Fin 4 → Nat) a + S1x1x256x256.size a ≤ S4x9x256x256.size a
  inb_S4x9x256x256_S1x1x256x256_1_1_0_0 : ∀ a, (![1, 1, 0, 0] : Fin 4 → Nat) a + S1x1x256x256.size a ≤ S4x9x256x256.size a
  inb_S4x9x256x256_S1x1x256x256_1_2_0_0 : ∀ a, (![1, 2, 0, 0] : Fin 4 → Nat) a + S1x1x256x256.size a ≤ S4x9x256x256.size a
  inb_S4x9x256x256_S1x1x256x256_1_3_0_0 : ∀ a, (![1, 3, 0, 0] : Fin 4 → Nat) a + S1x1x256x256.size a ≤ S4x9x256x256.size a
  inb_S4x9x256x256_S1x1x256x256_1_4_0_0 : ∀ a, (![1, 4, 0, 0] : Fin 4 → Nat) a + S1x1x256x256.size a ≤ S4x9x256x256.size a
  inb_S4x9x256x256_S1x1x256x256_1_5_0_0 : ∀ a, (![1, 5, 0, 0] : Fin 4 → Nat) a + S1x1x256x256.size a ≤ S4x9x256x256.size a
  inb_S4x9x256x256_S1x1x256x256_1_6_0_0 : ∀ a, (![1, 6, 0, 0] : Fin 4 → Nat) a + S1x1x256x256.size a ≤ S4x9x256x256.size a
  inb_S4x9x256x256_S1x1x256x256_1_7_0_0 : ∀ a, (![1, 7, 0, 0] : Fin 4 → Nat) a + S1x1x256x256.size a ≤ S4x9x256x256.size a
  inb_S4x9x256x256_S1x1x256x256_1_8_0_0 : ∀ a, (![1, 8, 0, 0] : Fin 4 → Nat) a + S1x1x256x256.size a ≤ S4x9x256x256.size a
  inb_S4x256x256_S1x256x256_2_0_0 : ∀ a, (![2, 0, 0] : Fin 3 → Nat) a + S1x256x256.size a ≤ S4x256x256.size a
  inb_S4x9x256x256_S1x1x256x256_2_0_0_0 : ∀ a, (![2, 0, 0, 0] : Fin 4 → Nat) a + S1x1x256x256.size a ≤ S4x9x256x256.size a
  inb_S4x9x256x256_S1x1x256x256_2_1_0_0 : ∀ a, (![2, 1, 0, 0] : Fin 4 → Nat) a + S1x1x256x256.size a ≤ S4x9x256x256.size a
  inb_S4x9x256x256_S1x1x256x256_2_2_0_0 : ∀ a, (![2, 2, 0, 0] : Fin 4 → Nat) a + S1x1x256x256.size a ≤ S4x9x256x256.size a
  inb_S4x9x256x256_S1x1x256x256_2_3_0_0 : ∀ a, (![2, 3, 0, 0] : Fin 4 → Nat) a + S1x1x256x256.size a ≤ S4x9x256x256.size a
  inb_S4x9x256x256_S1x1x256x256_2_4_0_0 : ∀ a, (![2, 4, 0, 0] : Fin 4 → Nat) a + S1x1x256x256.size a ≤ S4x9x256x256.size a
  inb_S4x9x256x256_S1x1x256x256_2_5_0_0 : ∀ a, (![2, 5, 0, 0] : Fin 4 → Nat) a + S1x1x256x256.size a ≤ S4x9x256x256.size a
  inb_S4x9x256x256_S1x1x256x256_2_6_0_0 : ∀ a, (![2, 6, 0, 0] : Fin 4 → Nat) a + S1x1x256x256.size a ≤ S4x9x256x256.size a
  inb_S4x9x256x256_S1x1x256x256_2_7_0_0 : ∀ a, (![2, 7, 0, 0] : Fin 4 → Nat) a + S1x1x256x256.size a ≤ S4x9x256x256.size a
  inb_S4x9x256x256_S1x1x256x256_2_8_0_0 : ∀ a, (![2, 8, 0, 0] : Fin 4 → Nat) a + S1x1x256x256.size a ≤ S4x9x256x256.size a
  inb_S4x256x256_S1x256x256_3_0_0 : ∀ a, (![3, 0, 0] : Fin 3 → Nat) a + S1x256x256.size a ≤ S4x256x256.size a
  inb_S4x9x256x256_S1x1x256x256_3_0_0_0 : ∀ a, (![3, 0, 0, 0] : Fin 4 → Nat) a + S1x1x256x256.size a ≤ S4x9x256x256.size a
  inb_S4x9x256x256_S1x1x256x256_3_1_0_0 : ∀ a, (![3, 1, 0, 0] : Fin 4 → Nat) a + S1x1x256x256.size a ≤ S4x9x256x256.size a
  inb_S4x9x256x256_S1x1x256x256_3_2_0_0 : ∀ a, (![3, 2, 0, 0] : Fin 4 → Nat) a + S1x1x256x256.size a ≤ S4x9x256x256.size a
  inb_S4x9x256x256_S1x1x256x256_3_3_0_0 : ∀ a, (![3, 3, 0, 0] : Fin 4 → Nat) a + S1x1x256x256.size a ≤ S4x9x256x256.size a
  inb_S4x9x256x256_S1x1x256x256_3_4_0_0 : ∀ a, (![3, 4, 0, 0] : Fin 4 → Nat) a + S1x1x256x256.size a ≤ S4x9x256x256.size a
  inb_S4x9x256x256_S1x1x256x256_3_5_0_0 : ∀ a, (![3, 5, 0, 0] : Fin 4 → Nat) a + S1x1x256x256.size a ≤ S4x9x256x256.size a
  inb_S4x9x256x256_S1x1x256x256_3_6_0_0 : ∀ a, (![3, 6, 0, 0] : Fin 4 → Nat) a + S1x1x256x256.size a ≤ S4x9x256x256.size a
  inb_S4x9x256x256_S1x1x256x256_3_7_0_0 : ∀ a, (![3, 7, 0, 0] : Fin 4 → Nat) a + S1x1x256x256.size a ≤ S4x9x256x256.size a
  inb_S4x9x256x256_S1x1x256x256_3_8_0_0 : ∀ a, (![3, 8, 0, 0] : Fin 4 → Nat) a + S1x1x256x256.size a ≤ S4x9x256x256.size a
  shapeCasts_S64x9x256x256_S4x16x9x256x256 : S64x9x256x256.ShapeCasts S4x16x9x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S64x256x256.size a
  hwx0_0 : ∀ i : grid0.Coords, EltTy.bits .f32 = 32 ∨ (Rect.block (s := S64x256x256) S4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S64x256x256.size a
  hwx0_1 : ∀ i : grid0.Coords, EltTy.bits .f32 = 32 ∨ (Rect.block (s := S64x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x9x256x256.size a ≤ S64x9x256x256.size a
  hwx0_2 : ∀ i : grid0.Coords, EltTy.bits .f32 = 32 ∨ (Rect.block (s := S64x9x256x256) S4x9x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x9x256x256.size a ≤ S64x9x256x256.size a
  hwx0_3 : ∀ i : grid0.Coords, EltTy.bits .f32 = 32 ∨ (Rect.block (s := S64x9x256x256) S4x9x256x256.size (cc0_transform_3 i) (hinb0_3 i)).WholeWords (EltTy.packing .f32)

variable [Facts₀]

abbrev win0_0 : Pipeline.Window sig grid0 :=
  Pipeline.Window.ofSpec (Memref.whole main_v0) S4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x9x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x9x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x256x256 : Shape := ⟨4, ![4, 16, 256, 256]⟩
abbrev S_ : Shape := ⟨0, ![]⟩
abbrev S4x16x258x258 : Shape := ⟨4, ![4, 16, 258, 258]⟩
abbrev S4x16x1x256x256 : Shape := ⟨5, ![4, 16, 1, 256, 256]⟩
abbrev S4x16x9x256x256 : Shape := ⟨5, ![4, 16, 9, 256, 256]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S4x16x256x256, .f32⟩
  | .hbm, ⟨1, _⟩ => ⟨S4x16x256x256, .f32⟩
  | .hbm, ⟨2, _⟩ => ⟨S_, .i32⟩
  | .hbm, ⟨3, _⟩ => ⟨S_, .f32⟩
  | .hbm, ⟨4, _⟩ => ⟨S4x16x258x258, .f32⟩
  | .hbm, ⟨5, _⟩ => ⟨S4x16x256x256, .f32⟩
  | .hbm, ⟨6, _⟩ => ⟨S4x16x256x256, .f32⟩
  | .hbm, ⟨7, _⟩ => ⟨S4x16x256x256, .f32⟩
  | .hbm, ⟨8, _⟩ => ⟨S4x16x256x256, .f32⟩
  | .hbm, ⟨9, _⟩ => ⟨S4x16x256x256, .f32⟩
  | .hbm, ⟨10, _⟩ => ⟨S4x16x256x256, .f32⟩
  | .hbm, ⟨11, _⟩ => ⟨S4x16x256x256, .f32⟩
  | .hbm, ⟨12, _⟩ => ⟨S4x16x256x256, .f32⟩
  | .hbm, ⟨13, _⟩ => ⟨S4x16x256x256, .f32⟩
  | .hbm, ⟨14, _⟩ => ⟨S4x16x1x256x256, .f32⟩
  | .hbm, ⟨15, _⟩ => ⟨S4x16x1x256x256, .f32⟩
  | .hbm, ⟨16, _⟩ => ⟨S4x16x1x256x256, .f32⟩
  | .hbm, ⟨17, _⟩ => ⟨S4x16x1x256x256, .f32⟩
  | .hbm, ⟨18, _⟩ => ⟨S4x16x1x256x256, .f32⟩
  | .hbm, ⟨19, _⟩ => ⟨S4x16x1x256x256, .f32⟩
  | .hbm, ⟨20, _⟩ => ⟨S4x16x1x256x256, .f32⟩
  | .hbm, ⟨21, _⟩ => ⟨S4x16x1x256x256, .f32⟩
  | .hbm, ⟨22, _⟩ => ⟨S4x16x1x256x256, .f32⟩
  | .hbm, ⟨23, _⟩ => ⟨S4x16x9x256x256, .f32⟩
  | .hbm, ⟨24, _⟩ => ⟨S_, .i32⟩
  | .hbm, ⟨25, _⟩ => ⟨S_, .f32⟩
  | .hbm, ⟨26, _⟩ => ⟨S4x16x258x258, .f32⟩
  | .hbm, ⟨27, _⟩ => ⟨S4x16x256x256, .f32⟩
  | .hbm, ⟨28, _⟩ => ⟨S4x16x256x256, .f32⟩
  | .hbm, ⟨29, _⟩ => ⟨S4x16x256x256, .f32⟩
  | .hbm, ⟨30, _⟩ => ⟨S4x16x256x256, .f32⟩
  | .hbm, ⟨31, _⟩ => ⟨S4x16x256x256, .f32⟩
  | .hbm, ⟨32, _⟩ => ⟨S4x16x256x256, .f32⟩
  | .hbm, ⟨33, _⟩ => ⟨S4x16x256x256, .f32⟩
  | .hbm, ⟨34, _⟩ => ⟨S4x16x256x256, .f32⟩
  | .hbm, ⟨35, _⟩ => ⟨S4x16x256x256, .f32⟩
  | .hbm, ⟨36, _⟩ => ⟨S4x16x1x256x256, .f32⟩
  | .hbm, ⟨37, _⟩ => ⟨S4x16x1x256x256, .f32⟩
  | .hbm, ⟨38, _⟩ => ⟨S4x16x1x256x256, .f32⟩
  | .hbm, ⟨39, _⟩ => ⟨S4x16x1x256x256, .f32⟩
  | .hbm, ⟨40, _⟩ => ⟨S4x16x1x256x256, .f32⟩
  | .hbm, ⟨41, _⟩ => ⟨S4x16x1x256x256, .f32⟩
  | .hbm, ⟨42, _⟩ => ⟨S4x16x1x256x256, .f32⟩
  | .hbm, ⟨43, _⟩ => ⟨S4x16x1x256x256, .f32⟩
  | .hbm, ⟨44, _⟩ => ⟨S4x16x1x256x256, .f32⟩
  | .hbm, ⟨45, _⟩ => ⟨S4x16x9x256x256, .f32⟩
  | .hbm, ⟨46, _⟩ => ⟨S4x16x1x256x256, .f32⟩
  | .hbm, ⟨47, _⟩ => ⟨S4x16x1x256x256, .f32⟩
  | .hbm, ⟨48, _⟩ => ⟨S4x16x9x256x256, .f32⟩
  | .hbm, ⟨49, _⟩ => ⟨S4x16x9x256x256, .f32⟩
  | .hbm, ⟨50, _⟩ => ⟨S4x16x1x256x256, .f32⟩
  | .hbm, ⟨51, _⟩ => ⟨S4x16x256x256, .f32⟩
  | .hbm, ⟨52, _⟩ => ⟨S_, .i32⟩
  | .hbm, ⟨53, _⟩ => ⟨S1, .i32⟩
  | .hbm, ⟨54, _⟩ => ⟨S4x16x9x256x256, .f32⟩
  | .hbm, ⟨55, _⟩ => ⟨S4x16x9x256x256, .f32⟩
  | .hbm, ⟨56, _⟩ => ⟨S4x16x9x256x256, .f32⟩
  | .hbm, ⟨57, _⟩ => ⟨S4x16x1x256x256, .f32⟩
  | .hbm, ⟨58, _⟩ => ⟨S4x16x256x256, .f32⟩
  | .hbm, ⟨59, _⟩ => ⟨S_, .i32⟩
  | .hbm, ⟨60, _⟩ => ⟨S1, .i32⟩
  | .hbm, ⟨61, _⟩ => ⟨S4x16x9x256x256, .f32⟩
  | _, _ => ⟨S4x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_1 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c_2 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]

class Facts₀ : Prop where
  pads_S4x16x256x256_S4x16x258x258_000_000_110_110 : S4x16x256x256.Pads (![0, 0, 1, 1] : Fin 4 → Nat) ![0, 0, 1, 1] ![0, 0, 0, 0] S4x16x258x258
  h_S_ : 0 < S_.numel
  slices_S4x16x258x258_S4x16x256x256_0_0_0_0 : S4x16x258x258.Slices ![0, 0, 0, 0] S4x16x256x256
  slices_S4x16x258x258_S4x16x256x256_0_0_0_1 : S4x16x258x258.Slices ![0, 0, 0, 1] S4x16x256x256
  slices_S4x16x258x258_S4x16x256x256_0_0_0_2 : S4x16x258x258.Slices ![0, 0, 0, 2] S4x16x256x256
  slices_S4x16x258x258_S4x16x256x256_0_0_1_0 : S4x16x258x258.Slices ![0, 0, 1, 0] S4x16x256x256
  slices_S4x16x258x258_S4x16x256x256_0_0_1_1 : S4x16x258x258.Slices ![0, 0, 1, 1] S4x16x256x256
  slices_S4x16x258x258_S4x16x256x256_0_0_1_2 : S4x16x258x258.Slices ![0, 0, 1, 2] S4x16x256x256
  slices_S4x16x258x258_S4x16x256x256_0_0_2_0 : S4x16x258x258.Slices ![0, 0, 2, 0] S4x16x256x256
  slices_S4x16x258x258_S4x16x256x256_0_0_2_1 : S4x16x258x258.Slices ![0, 0, 2, 1] S4x16x256x256
  slices_S4x16x258x258_S4x16x256x256_0_0_2_2 : S4x16x258x258.Slices ![0, 0, 2, 2] S4x16x256x256
  bcast_S4x16x256x256_S4x16x1x256x256_0_1_3_4 : S4x16x256x256.BroadcastsInDim S4x16x1x256x256 (![0, 1, 3, 4] : Fin 4 → Fin S4x16x1x256x256.rank)
  concatenates_S4x16x1x256x256_S4x16x1x256x256_S4x16x1x256x256_S4x16x1x256x256_S4x16x1x256x256_S4x16x1x256x256_S4x16x1x256x256_S4x16x1x256x256_S4x16x1x256x256_S4x16x9x256x256_d2 : Shape.Concatenates [S4x16x1x256x256, S4x16x1x256x256, S4x16x1x256x256, S4x16x1x256x256, S4x16x1x256x256, S4x16x1x256x256, S4x16x1x256x256, S4x16x1x256x256, S4x16x1x256x256] S4x16x9x256x256 2
  slices_S4x16x9x256x256_S4x16x1x256x256_0_0_4_0_0 : S4x16x9x256x256.Slices ![0, 0, 4, 0, 0] S4x16x1x256x256
  bcast_S4x16x1x256x256_S4x16x9x256x256_0_1_2_3_4 : S4x16x1x256x256.BroadcastsInDim S4x16x9x256x256 (![0, 1, 2, 3, 4] : Fin 5 → Fin S4x16x9x256x256.rank)
  shapeCasts_S4x16x1x256x256_S4x16x256x256 : S4x16x1x256x256.ShapeCasts S4x16x256x256
  bcast_S_S1 : S_.BroadcastsInDim S1 (![] : Fin 0 → Fin S1.rank)
  scatter_S4x16x9x256x256_S1_S4x16x256x256_0123_2_2_0_wf : ScatterDims.WF S4x16x9x256x256 S1 S4x16x256x256 [0, 1, 2, 3] [2] [2] 0

variable [Facts₀]

def scatter_S4x16x9x256x256_S1_S4x16x256x256_0123_2_2_0 : ScatterDims S4x16x9x256x256 S1 S4x16x256x256 where
  updateWindowDims := [0, 1, 2, 3]
  insertedWindowDims := [2]
  scatterDimsToOperandDims := [2]
  indexVectorDim := 0
  wf := scatter_S4x16x9x256x256_S1_S4x16x256x256_0123_2_2_0_wf

class Facts : Prop extends Facts₀ where

variable [Facts]
-- ==== Proof.KernelTapDefs.lean ====
/-
  The nine taps of the kernel's body, each as one function of an image.

  The body moves an image by one pixel with zero fill: a move down puts a row of zeros on top of the
  image's first 255 rows; a move up puts the image's last 255 rows on top of a row of zeros; a move
  right puts a column of zeros before the first 255 columns, a move left the last 255 columns before
  a column of zeros. The neighbour displaced by (di, dj) is the row move for di followed by the column
  move for dj. Tap c = 3·(di + 1) + (dj + 1) is that neighbour times the image, laid out as a
  1 × 1 × 256 × 256 slab; the centre tap is the image itself.
-/
import proofs.«101597_j76270029242959_2_alg».proof.Proof.Gen.KernelIdeal

noncomputable section

namespace Cert.Unfold3.Kernel

open Idealize.ShloMosaic Idealize.SL.Sem Cert.KernelIdeal Cert.KernelIdeal.Facts₀

variable {F : FTy → Type} [FloatOps F]

/-- The zero the body fills with. -/
def zero : F .f32 := Scalar.ofBits .f32 0x00000000#32

/-- Row `i` of the result is row `i - 1` of the image; row 0 is zeros. -/
def rowDown (v : FVec F S256x256 .f32) : FVec F S256x256 .f32 :=
  concatenate S256x256 0 [⟨S1x256, broadcast S1x256 (zero (F := F))⟩,
    ⟨S255x256, extractStridedSlice S255x256 ![0, 0] v slices_S256x256_o0_0_S255x256⟩] concatenates_S1x256_S255x256_S256x256_d0

/-- Row `i` of the result is row `i + 1` of the image; row 255 is zeros. -/
def rowUp (v : FVec F S256x256 .f32) : FVec F S256x256 .f32 :=
  concatenate S256x256 0 [⟨S255x256, extractStridedSlice S255x256 ![1, 0] v slices_S256x256_o1_0_S255x256⟩,
    ⟨S1x256, broadcast S1x256 (zero (F := F))⟩] concatenates_S255x256_S1x256_S256x256_d0

/-- Column `j` of the result is column `j - 1` of the image; column 0 is zeros. -/
def colRight (v : FVec F S256x256 .f32) : FVec F S256x256 .f32 :=
  concatenate S256x256 1 [⟨S256x1, broadcast S256x1 (zero (F := F))⟩,
    ⟨S256x255, extractStridedSlice S256x255 ![0, 0] v slices_S256x256_o0_0_S256x255⟩] concatenates_S256x1_S256x255_S256x256_d1

/-- Column `j` of the result is column `j + 1` of the image; column 255 is zeros. -/
def colLeft (v : FVec F S256x256 .f32) : FVec F S256x256 .f32 :=
  concatenate S256x256 1 [⟨S256x255, extractStridedSlice S256x255 ![0, 1] v slices_S256x256_o0_1_S256x255⟩,
    ⟨S256x1, broadcast S256x1 (zero (F := F))⟩] concatenates_S256x255_S256x1_S256x256_d1

/-- A moved image times the image, as a slab of the output block. -/
def slabMul (w v : FVec F S256x256 .f32) : FVec F S1x1x256x256 .f32 :=
  shapeCast S1x1x256x256 (mulf w v) shapeCasts_S256x256_S1x1x256x256

def tap0 (v : FVec F S256x256 .f32) : FVec F S1x1x256x256 .f32 := slabMul (colRight (rowDown v)) v
def tap1 (v : FVec F S256x256 .f32) : FVec F S1x1x256x256 .f32 := slabMul (rowDown v) v
def tap2 (v : FVec F S256x256 .f32) : FVec F S1x1x256x256 .f32 := slabMul (colLeft (rowDown v)) v
def tap3 (v : FVec F S256x256 .f32) : FVec F S1x1x256x256 .f32 := slabMul (colRight v) v
def tap4 (v : FVec F S256x256 .f32) : FVec F S1x1x256x256 .f32 := shapeCast S1x1x256x256 v shapeCasts_S256x256_S1x1x256x256
def tap5 (v : FVec F S256x256 .f32) : FVec F S1x1x256x256 .f32 := slabMul (colLeft v) v
def tap6 (v : FVec F S256x256 .f32) : FVec F S1x1x256x256 .f32 := slabMul (colRight (rowUp v)) v
def tap7 (v : FVec F S256x256 .f32) : FVec F S1x1x256x256 .f32 := slabMul (rowUp v) v
def tap8 (v : FVec F S256x256 .f32) : FVec F S1x1x256x256 .f32 := slabMul (colLeft (rowUp v)) v

/-- Tap `c` of an image. -/
def tap (c : Fin 9) (v : FVec F S256x256 .f32) : FVec F S1x1x256x256 .f32 :=
  match c with
  | ⟨0, _⟩ => tap0 v | ⟨1, _⟩ => tap1 v | ⟨2, _⟩ => tap2 v | ⟨3, _⟩ => tap3 v | ⟨4, _⟩ => tap4 v
  | ⟨5, _⟩ => tap5 v | ⟨6, _⟩ => tap6 v | ⟨7, _⟩ => tap7 v | ⟨8, _⟩ => tap8 v

end Cert.Unfold3.Kernel

end
-- ==== Proof.KernelBlock.lean ====
/-
  What the kernel's body leaves in an output block, as one function of the input block.

  The body handles a block of four images. For image b of the block and tap c it stores, through
  the rectangle at (b, c, 0, 0) of extent 1 × 1 × 256 × 256, tap c of image b. The 36 rectangles
  tile the output block [4, 9, 256, 256], so the block ends holding, at (b, c, i, j), tap c of
  image b at pixel (i, j). Both outputs are this function: the first of the first input's block, the
  second of the second input's block.
-/
import proofs.«101597_j76270029242959_2_alg».proof.Proof.Gen.KernelIdeal.Frame
import proofs.«101597_j76270029242959_2_alg».proof.Proof.KernelTapDefs
import Idealize.ShloMosaic.Lib.Pipeline.Value
import Idealize.ShloMosaic.Lib.ValueIdx

set_option maxRecDepth 16384

noncomputable section

namespace Cert.Unfold3.Kernel

open Idealize.ShloMosaic Idealize.ShloMosaic.ValueIdx Idealize.SL.Sem Cert.KernelIdeal Cert.KernelIdeal.Gen

variable {F : FTy → Type} [FloatOps F]

/-- The rectangle of image `b` in a block of four images lies inside the block. -/
theorem inb_img (b : Fin 4) : ∀ a, (![b.val, 0, 0] : Fin 3 → Nat) a + S1x256x256.size a ≤ S4x256x256.size a := by
  intro a
  have hb := b.isLt
  match a with
  | ⟨0, _⟩ => show b.val + 1 ≤ 4; omega
  | ⟨1, _⟩ => show 0 + 256 ≤ 256; omega
  | ⟨2, _⟩ => show 0 + 256 ≤ 256; omega

/-- Image `b` of a block of four, as the body loads it. -/
def img (x : Vec F S4x256x256 .f32) (b : Fin 4) : FVec F S256x256 .f32 :=
  shapeCast S256x256 (View.ld x (Rect.unit (s := S4x256x256) ![b.val, 0, 0] S1x256x256.size (inb_img b)))
    Gen.shapeCasts_S1x256x256_S256x256

/-- The output block of an input block: at `(b, c, i, j)`, tap `c` of image `b` at pixel `(i, j)`. -/
def block (x : Vec F S4x256x256 .f32) : Vec F S4x9x256x256 .f32 :=
  fun y => tap (y 1) (img x (y 0)) (ix4 (0 : Fin 1) (0 : Fin 1) (y 2) (y 3))

/-- The slab stored at `(b, c, 0, 0)` is the block's restriction to that rectangle. -/
theorem piece (x : Vec F S4x256x256 .f32) (b : Fin 4) (c : Fin 9)
    (inb : ∀ a, (![b.val, c.val, 0, 0] : Fin 4 → Nat) a + S1x1x256x256.size a ≤ S4x9x256x256.size a)
    (z : S1x1x256x256.Idx) :
    tap c (img x b) z = block x ((Rect.unit (s := S4x9x256x256) ![b.val, c.val, 0, 0] S1x1x256x256.size inb).emb z) := by
  have h0 : (z 0).val < 1 := (z 0).isLt
  have h1 : (z 1).val < 1 := (z 1).isLt
  have e0 : ((Rect.unit (s := S4x9x256x256) ![b.val, c.val, 0, 0] S1x1x256x256.size inb).emb z) 0 = b :=
    Fin.ext (by show b.val + 1 * (z 0).val = b.val; omega)
  have e1 : ((Rect.unit (s := S4x9x256x256) ![b.val, c.val, 0, 0] S1x1x256x256.size inb).emb z) 1 = c :=
    Fin.ext (by show c.val + 1 * (z 1).val = c.val; omega)
  show tap c (img x b) z = tap (((Rect.unit (s := S4x9x256x256) ![b.val, c.val, 0, 0] S1x1x256x256.size inb).emb z) 1)
    (img x (((Rect.unit (s := S4x9x256x256) ![b.val, c.val, 0, 0] S1x1x256x256.size inb).emb z) 0)) _
  rw [e0, e1]
  congr 1
  funext a
  apply Fin.ext
  match a with
  | ⟨0, _⟩ => show (z 0).val = 0; omega
  | ⟨1, _⟩ => show (z 1).val = 0; omega
  | ⟨2, _⟩ => show (z 2).val = 0 + 1 * (z 2).val; omega
  | ⟨3, _⟩ => show (z 3).val = 0 + 1 * (z 3).val; omega

/-- The first output's block after the body is `block` of the first input's block. -/
theorem out0_2_eq (x x1 : Vec F S4x256x256 .f32) : out0_2 x x1 = block x := by
  funext y
  unfold out0_2
  refine View.canon_apply_of_pieces (block x) _ ?_ y (cover0_2 _ _ _ _ _ _ _ _ _ _ _ _ _ _ _ _ _ _ _ _ _ _ _ _ _ _ _ _ _ _ _ _ _ _ _ _ y)
  intro p hp z
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece x ⟨3, by decide⟩ ⟨8, by decide⟩ Gen.inb_S4x9x256x256_S1x1x256x256_3_8_0_0 z
  · exact piece x ⟨3, by decide⟩ ⟨7, by decide⟩ Gen.inb_S4x9x256x256_S1x1x256x256_3_7_0_0 z
  · exact piece x ⟨3, by decide⟩ ⟨6, by decide⟩ Gen.inb_S4x9x256x256_S1x1x256x256_3_6_0_0 z
  · exact piece x ⟨3, by decide⟩ ⟨5, by decide⟩ Gen.inb_S4x9x256x256_S1x1x256x256_3_5_0_0 z
  · exact piece x ⟨3, by decide⟩ ⟨4, by decide⟩ Gen.inb_S4x9x256x256_S1x1x256x256_3_4_0_0 z
  · exact piece x ⟨3, by decide⟩ ⟨3, by decide⟩ Gen.inb_S4x9x256x256_S1x1x256x256_3_3_0_0 z
  · exact piece x ⟨3, by decide⟩ ⟨2, by decide⟩ Gen.inb_S4x9x256x256_S1x1x256x256_3_2_0_0 z
  · exact piece x ⟨3, by decide⟩ ⟨1, by decide⟩ Gen.inb_S4x9x256x256_S1x1x256x256_3_1_0_0 z
  · exact piece x ⟨3, by decide⟩ ⟨0, by decide⟩ Gen.inb_S4x9x256x256_S1x1x256x256_3_0_0_0 z
  · exact piece x ⟨2, by decide⟩ ⟨8, by decide⟩ Gen.inb_S4x9x256x256_S1x1x256x256_2_8_0_0 z
  · exact piece x ⟨2, by decide⟩ ⟨7, by decide⟩ Gen.inb_S4x9x256x256_S1x1x256x256_2_7_0_0 z
  · exact piece x ⟨2, by decide⟩ ⟨6, by decide⟩ Gen.inb_S4x9x256x256_S1x1x256x256_2_6_0_0 z
  · exact piece x ⟨2, by decide⟩ ⟨5, by decide⟩ Gen.inb_S4x9x256x256_S1x1x256x256_2_5_0_0 z
  · exact piece x ⟨2, by decide⟩ ⟨4, by decide⟩ Gen.inb_S4x9x256x256_S1x1x256x256_2_4_0_0 z
  · exact piece x ⟨2, by decide⟩ ⟨3, by decide⟩ Gen.inb_S4x9x256x256_S1x1x256x256_2_3_0_0 z
  · exact piece x ⟨2, by decide⟩ ⟨2, by decide⟩ Gen.inb_S4x9x256x256_S1x1x256x256_2_2_0_0 z
  · exact piece x ⟨2, by decide⟩ ⟨1, by decide⟩ Gen.inb_S4x9x256x256_S1x1x256x256_2_1_0_0 z
  · exact piece x ⟨2, by decide⟩ ⟨0, by decide⟩ Gen.inb_S4x9x256x256_S1x1x256x256_2_0_0_0 z
  · exact piece x ⟨1, by decide⟩ ⟨8, by decide⟩ Gen.inb_S4x9x256x256_S1x1x256x256_1_8_0_0 z
  · exact piece x ⟨1, by decide⟩ ⟨7, by decide⟩ Gen.inb_S4x9x256x256_S1x1x256x256_1_7_0_0 z
  · exact piece x ⟨1, by decide⟩ ⟨6, by decide⟩ Gen.inb_S4x9x256x256_S1x1x256x256_1_6_0_0 z
  · exact piece x ⟨1, by decide⟩ ⟨5, by decide⟩ Gen.inb_S4x9x256x256_S1x1x256x256_1_5_0_0 z
  · exact piece x ⟨1, by decide⟩ ⟨4, by decide⟩ Gen.inb_S4x9x256x256_S1x1x256x256_1_4_0_0 z
  · exact piece x ⟨1, by decide⟩ ⟨3, by decide⟩ Gen.inb_S4x9x256x256_S1x1x256x256_1_3_0_0 z
  · exact piece x ⟨1, by decide⟩ ⟨2, by decide⟩ Gen.inb_S4x9x256x256_S1x1x256x256_1_2_0_0 z
  · exact piece x ⟨1, by decide⟩ ⟨1, by decide⟩ Gen.inb_S4x9x256x256_S1x1x256x256_1_1_0_0 z
  · exact piece x ⟨1, by decide⟩ ⟨0, by decide⟩ Gen.inb_S4x9x256x256_S1x1x256x256_1_0_0_0 z
  · exact piece x ⟨0, by decide⟩ ⟨8, by decide⟩ Gen.inb_S4x9x256x256_S1x1x256x256_0_8_0_0 z
  · exact piece x ⟨0, by decide⟩ ⟨7, by decide⟩ Gen.inb_S4x9x256x256_S1x1x256x256_0_7_0_0 z
  · exact piece x ⟨0, by decide⟩ ⟨6, by decide⟩ Gen.inb_S4x9x256x256_S1x1x256x256_0_6_0_0 z
  · exact piece x ⟨0, by decide⟩ ⟨5, by decide⟩ Gen.inb_S4x9x256x256_S1x1x256x256_0_5_0_0 z
  · exact piece x ⟨0, by decide⟩ ⟨4, by decide⟩ Gen.inb_S4x9x256x256_S1x1x256x256_0_4_0_0 z
  · exact piece x ⟨0, by decide⟩ ⟨3, by decide⟩ Gen.inb_S4x9x256x256_S1x1x256x256_0_3_0_0 z
  · exact piece x ⟨0, by decide⟩ ⟨2, by decide⟩ Gen.inb_S4x9x256x256_S1x1x256x256_0_2_0_0 z
  · exact piece x ⟨0, by decide⟩ ⟨1, by decide⟩ Gen.inb_S4x9x256x256_S1x1x256x256_0_1_0_0 z
  · exact piece x ⟨0, by decide⟩ ⟨0, by decide⟩ Gen.inb_S4x9x256x256_S1x1x256x256_0_0_0_0 z

/-- The second output's block after the body is `block` of the second input's block. -/
theorem out0_3_eq (x0 x : Vec F S4x256x256 .f32) : out0_3 x0 x = block x := by
  funext y
  unfold out0_3
  refine View.canon_apply_of_pieces (block x) _ ?_ y (cover0_3 _ _ _ _ _ _ _ _ _ _ _ _ _ _ _ _ _ _ _ _ _ _ _ _ _ _ _ _ _ _ _ _ _ _ _ _ y)
  intro p hp z
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece x ⟨3, by decide⟩ ⟨8, by decide⟩ Gen.inb_S4x9x256x256_S1x1x256x256_3_8_0_0 z
  · exact piece x ⟨3, by decide⟩ ⟨7, by decide⟩ Gen.inb_S4x9x256x256_S1x1x256x256_3_7_0_0 z
  · exact piece x ⟨3, by decide⟩ ⟨6, by decide⟩ Gen.inb_S4x9x256x256_S1x1x256x256_3_6_0_0 z
  · exact piece x ⟨3, by decide⟩ ⟨5, by decide⟩ Gen.inb_S4x9x256x256_S1x1x256x256_3_5_0_0 z
  · exact piece x ⟨3, by decide⟩ ⟨4, by decide⟩ Gen.inb_S4x9x256x256_S1x1x256x256_3_4_0_0 z
  · exact piece x ⟨3, by decide⟩ ⟨3, by decide⟩ Gen.inb_S4x9x256x256_S1x1x256x256_3_3_0_0 z
  · exact piece x ⟨3, by decide⟩ ⟨2, by decide⟩ Gen.inb_S4x9x256x256_S1x1x256x256_3_2_0_0 z
  · exact piece x ⟨3, by decide⟩ ⟨1, by decide⟩ Gen.inb_S4x9x256x256_S1x1x256x256_3_1_0_0 z
  · exact piece x ⟨3, by decide⟩ ⟨0, by decide⟩ Gen.inb_S4x9x256x256_S1x1x256x256_3_0_0_0 z
  · exact piece x ⟨2, by decide⟩ ⟨8, by decide⟩ Gen.inb_S4x9x256x256_S1x1x256x256_2_8_0_0 z
  · exact piece x ⟨2, by decide⟩ ⟨7, by decide⟩ Gen.inb_S4x9x256x256_S1x1x256x256_2_7_0_0 z
  · exact piece x ⟨2, by decide⟩ ⟨6, by decide⟩ Gen.inb_S4x9x256x256_S1x1x256x256_2_6_0_0 z
  · exact piece x ⟨2, by decide⟩ ⟨5, by decide⟩ Gen.inb_S4x9x256x256_S1x1x256x256_2_5_0_0 z
  · exact piece x ⟨2, by decide⟩ ⟨4, by decide⟩ Gen.inb_S4x9x256x256_S1x1x256x256_2_4_0_0 z
  · exact piece x ⟨2, by decide⟩ ⟨3, by decide⟩ Gen.inb_S4x9x256x256_S1x1x256x256_2_3_0_0 z
  · exact piece x ⟨2, by decide⟩ ⟨2, by decide⟩ Gen.inb_S4x9x256x256_S1x1x256x256_2_2_0_0 z
  · exact piece x ⟨2, by decide⟩ ⟨1, by decide⟩ Gen.inb_S4x9x256x256_S1x1x256x256_2_1_0_0 z
  · exact piece x ⟨2, by decide⟩ ⟨0, by decide⟩ Gen.inb_S4x9x256x256_S1x1x256x256_2_0_0_0 z
  · exact piece x ⟨1, by decide⟩ ⟨8, by decide⟩ Gen.inb_S4x9x256x256_S1x1x256x256_1_8_0_0 z
  · exact piece x ⟨1, by decide⟩ ⟨7, by decide⟩ Gen.inb_S4x9x256x256_S1x1x256x256_1_7_0_0 z
  · exact piece x ⟨1, by decide⟩ ⟨6, by decide⟩ Gen.inb_S4x9x256x256_S1x1x256x256_1_6_0_0 z
  · exact piece x ⟨1, by decide⟩ ⟨5, by decide⟩ Gen.inb_S4x9x256x256_S1x1x256x256_1_5_0_0 z
  · exact piece x ⟨1, by decide⟩ ⟨4, by decide⟩ Gen.inb_S4x9x256x256_S1x1x256x256_1_4_0_0 z
  · exact piece x ⟨1, by decide⟩ ⟨3, by decide⟩ Gen.inb_S4x9x256x256_S1x1x256x256_1_3_0_0 z
  · exact piece x ⟨1, by decide⟩ ⟨2, by decide⟩ Gen.inb_S4x9x256x256_S1x1x256x256_1_2_0_0 z
  · exact piece x ⟨1, by decide⟩ ⟨1, by decide⟩ Gen.inb_S4x9x256x256_S1x1x256x256_1_1_0_0 z
  · exact piece x ⟨1, by decide⟩ ⟨0, by decide⟩ Gen.inb_S4x9x256x256_S1x1x256x256_1_0_0_0 z
  · exact piece x ⟨0, by decide⟩ ⟨8, by decide⟩ Gen.inb_S4x9x256x256_S1x1x256x256_0_8_0_0 z
  · exact piece x ⟨0, by decide⟩ ⟨7, by decide⟩ Gen.inb_S4x9x256x256_S1x1x256x256_0_7_0_0 z
  · exact piece x ⟨0, by decide⟩ ⟨6, by decide⟩ Gen.inb_S4x9x256x256_S1x1x256x256_0_6_0_0 z
  · exact piece x ⟨0, by decide⟩ ⟨5, by decide⟩ Gen.inb_S4x9x256x256_S1x1x256x256_0_5_0_0 z
  · exact piece x ⟨0, by decide⟩ ⟨4, by decide⟩ Gen.inb_S4x9x256x256_S1x1x256x256_0_4_0_0 z
  · exact piece x ⟨0, by decide⟩ ⟨3, by decide⟩ Gen.inb_S4x9x256x256_S1x1x256x256_0_3_0_0 z
  · exact piece x ⟨0, by decide⟩ ⟨2, by decide⟩ Gen.inb_S4x9x256x256_S1x1x256x256_0_2_0_0 z
  · exact piece x ⟨0, by decide⟩ ⟨1, by decide⟩ Gen.inb_S4x9x256x256_S1x1x256x256_0_1_0_0 z
  · exact piece x ⟨0, by decide⟩ ⟨0, by decide⟩ Gen.inb_S4x9x256x256_S1x1x256x256_0_0_0_0 z

end Cert.Unfold3.Kernel

end
-- ==== Proof.KernelArray.lean ====
/-
  From blocks to arrays: what each output array holds after the kernel's region.

  The region's grid has 16 points; point t takes images 4t … 4t + 3 of the 64 images of each input
  array and writes rows 4t … 4t + 3 of each output array [64, 9, 256, 256]. Image n of the output
  at tap c is tap c of image n of the input. The 16 output blocks tile the output array, so after
  the region the whole array is that function of the input array.
-/
import proofs.«101597_j76270029242959_2_alg».proof.Proof.KernelBlock
import Idealize.ShloMosaic.Lib.Pipeline.Value
import Idealize.ShloMosaic.Lib.ValueLayout
import Idealize.ShloMosaic.Lib.ValueIdx

set_option maxRecDepth 16384

noncomputable section

namespace Cert.Unfold3.Kernel

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]

/-- Image `b` of a block at pixel `(i, j)` is the block at `(b, i, j)`. -/
theorem img_apply (x : Vec F S4x256x256 .f32) (b : Fin 4) (i j : Fin 256) : img x b (ix2 i j) = x (ix3 b i j) := by
  unfold img
  refine (shapeCast_1ab_ab_apply _ _ i j).trans ?_
  show x _ = x _
  congr 1
  funext a
  apply Fin.ext
  match a with
  | ⟨0, _⟩ => show b.val + 1 * 0 = b.val; omega
  | ⟨1, _⟩ => show 0 + 1 * i.val = i.val; omega
  | ⟨2, _⟩ => show 0 + 1 * j.val = j.val; omega

/-- Image `n` of an array of 64 images. -/
def image (X : Vec F S64x256x256 .f32) (n : Fin 64) : FVec F S256x256 .f32 := fun z => X (ix3 n (z 0) (z 1))

/-- The output array of an input array: at `(n, c, i, j)`, tap `c` of image `n` at pixel `(i, j)`. -/
def arr (X : Vec F S64x256x256 .f32) : Vec F S64x9x256x256 .f32 :=
  fun y => tap (y 1) (image X (y 0)) (ix4 (0 : Fin 1) (0 : Fin 1) (y 2) (y 3))

/-- An output block is the output array's restriction: if the input block `x` holds images `4q … 4q + 3` of `X`,
    the block at `(b, c, i, k)` is the array at `(4q + b, c, i, k)`. -/
theorem block_eq_arr (x : Vec F S4x256x256 .f32) (X : Vec F S64x256x256 .f32) (q : Nat)
    (hx : ∀ (b : Fin 4) (n : Fin 64), n.val = q * 4 + b.val → ∀ i k : Fin 256, x (ix3 b i k) = X (ix3 n i k))
    (b : Fin 4) (c : Fin 9) (i k : Fin 256) (n : Fin 64) (hn : n.val = q * 4 + b.val) :
    block x (ix4 b c i k) = arr X (ix4 n c i k) := by
  have ei : img x b = image X n := by
    funext z
    obtain ⟨p, r, rfl⟩ : ∃ (p r : Fin 256), z = ix2 p r := ⟨z 0, z 1, eq_ix2 z⟩
    rw [img_apply]
    exact hx b n hn p r
  show tap c (img x b) (ix4 0 0 i k) = tap c (image X n) (ix4 0 0 i k)
  rw [ei]

variable (m : (ℓ : Loc nD τ sig) → Buf (Elt F) ℓ) (ρ : Dev nD → PrngReg)

/-- The printed index maps over the 16 grid points: every window's block index at point `t` is `t` on the
    leading axis and 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The input block at point `t` holds images `4t … 4t + 3` of the input array (window 0). -/
theorem iblk0_apply (c : Dev nD) (t : Fin cfg0.N) (b : Fin 4) (n : Fin 64) (hn : n.val = t.val * 4 + b.val) (i k : Fin 256) :
    iblk m c 0 t (ix3 b i k) = (V m c main_v0 : Vec F S64x256x256 .f32) (ix3 n i k) := by
  obtain ⟨e0, e1, e2, -⟩ := idx_facts t
  show (V m c main_v0 : Vec F S64x256x256 .f32) (((cfg0.win 0).blk t).view.emb (ix3 b i k)) = _
  congr 1
  funext a
  apply Fin.ext
  match a with
  | ⟨0, _⟩ => show win0_0.index t (0 : Fin 3) * 4 + 1 * b.val = n.val; omega
  | ⟨1, _⟩ => show win0_0.index t (1 : Fin 3) * 256 + 1 * i.val = i.val; omega
  | ⟨2, _⟩ => show win0_0.index t (2 : Fin 3) * 256 + 1 * k.val = k.val; omega

/-- The same for the second input (window 1). -/
theorem iblk1_apply (c : Dev nD) (t : Fin cfg0.N) (b : Fin 4) (n : Fin 64) (hn : n.val = t.val * 4 + b.val) (i k : Fin 256) :
    iblk m c 1 t (ix3 b i k) = (V m c main_v1 : Vec F S64x256x256 .f32) (ix3 n i k) := by
  obtain ⟨-, -, -, e0, e1, e2, -⟩ := idx_facts t
  show (V m c main_v1 : Vec F S64x256x256 .f32) (((cfg0.win 1).blk t).view.emb (ix3 b i k)) = _
  congr 1
  funext a
  apply Fin.ext
  match a with
  | ⟨0, _⟩ => show win0_1.index t (0 : Fin 3) * 4 + 1 * b.val = n.val; omega
  | ⟨1, _⟩ => show win0_1.index t (1 : Fin 3) * 256 + 1 * i.val = i.val; omega
  | ⟨2, _⟩ => show win0_1.index t (2 : Fin 3) * 256 + 1 * k.val = k.val; omega

/-- What point `t` writes back to the first output's array is block `t` of `arr` of the first input's array. -/
theorem flushed2_eq (c : Dev nD) (t : Fin cfg0.N) :
    (dats m 0 c).flushed 2 t = ((cfg0.win 2).blk t).view.read (Elt F) (arr (V m c main_v0 : Vec F S64x256x256 .f32)) := by
  show (cfg0.win 2).cut (grid0.coords t) ((dats m 0 c).after 2 t) = _
  rw [after0_2, out0_2_eq]
  obtain ⟨-, -, -, -, -, -, e0, e1, e2, e3, -⟩ := idx_facts t
  funext j
  obtain ⟨b, c', i, k, rfl⟩ : ∃ (b : Fin 4) (c' : Fin 9) (i k : Fin 256), j = ix4 b c' i k := ⟨j 0, j 1, j 2, j 3, eq_ix4 j⟩
  have ht : t.val < 16 := Nat.lt_of_lt_of_eq t.isLt (show cfg0.N = 16 from N_0)
  have hb := b.isLt
  show block (iblk m c 0 t) (ix4 b c' i k) = arr (V m c main_v0 : Vec F S64x256x256 .f32) (((cfg0.win 2).blk t).view.emb (ix4 b c' i k))
  have ey : ((cfg0.win 2).blk t).view.emb (ix4 b c' i k) = ix4 (⟨t.val * 4 + b.val, by omega⟩ : Fin 64) c' i k := by
    funext a
    apply Fin.ext
    match a with
    | ⟨0, _⟩ => show win0_2.index t (0 : Fin 4) * 4 + 1 * b.val = t.val * 4 + b.val; omega
    | ⟨1, _⟩ => show win0_2.index t (1 : Fin 4) * 9 + 1 * c'.val = c'.val; omega
    | ⟨2, _⟩ => show win0_2.index t (2 : Fin 4) * 256 + 1 * i.val = i.val; omega
    | ⟨3, _⟩ => show win0_2.index t (3 : Fin 4) * 256 + 1 * k.val = k.val; omega
  rw [ey]
  exact block_eq_arr (iblk m c 0 t) (V m c main_v0 : Vec F S64x256x256 .f32) t.val
    (fun b n hn i k => iblk0_apply m c t b n hn i k) b c' i k _ rfl

/-- What point `t` writes back to the second output's array is block `t` of `arr` of the second input's array. -/
theorem flushed3_eq (c : Dev nD) (t : Fin cfg0.N) :
    (dats m 0 c).flushed 3 t = ((cfg0.win 3).blk t).view.read (Elt F) (arr (V m c main_v1 : Vec F S64x256x256 .f32)) := by
  show (cfg0.win 3).cut (grid0.coords t) ((dats m 0 c).after 3 t) = _
  rw [after0_3, out0_3_eq]
  obtain ⟨-, -, -, -, -, -, -, -, -, -, e0, e1, e2, e3⟩ := idx_facts t
  funext j
  obtain ⟨b, c', i, k, rfl⟩ : ∃ (b : Fin 4) (c' : Fin 9) (i k : Fin 256), j = ix4 b c' i k := ⟨j 0, j 1, j 2, j 3, eq_ix4 j⟩
  have ht : t.val < 16 := Nat.lt_of_lt_of_eq t.isLt (show cfg0.N = 16 from N_0)
  have hb := b.isLt
  show block (iblk m c 1 t) (ix4 b c' i k) = arr (V m c main_v1 : Vec F S64x256x256 .f32) (((cfg0.win 3).blk t).view.emb (ix4 b c' i k))
  have ey : ((cfg0.win 3).blk t).view.emb (ix4 b c' i k) = ix4 (⟨t.val * 4 + b.val, by omega⟩ : Fin 64) c' i k := by
    funext a
    apply Fin.ext
    match a with
    | ⟨0, _⟩ => show win0_3.index t (0 : Fin 4) * 4 + 1 * b.val = t.val * 4 + b.val; omega
    | ⟨1, _⟩ => show win0_3.index t (1 : Fin 4) * 9 + 1 * c'.val = c'.val; omega
    | ⟨2, _⟩ => show win0_3.index t (2 : Fin 4) * 256 + 1 * i.val = i.val; omega
    | ⟨3, _⟩ => show win0_3.index t (3 : Fin 4) * 256 + 1 * k.val = k.val; omega
  rw [ey]
  exact block_eq_arr (iblk m c 1 t) (V m c main_v1 : Vec F S64x256x256 .f32) t.val
    (fun b n hn i k => iblk1_apply m c t b n hn i k) b c' i k _ rfl

/-- An index of the first output's array is in point `t`'s block iff each coordinate is in the block's range on its axis. -/
theorem mem_blk2 (t : Fin cfg0.N) (i : S64x9x256x256.Idx) :
    i ∈ ((cfg0.win 2).blk t).view.set ↔ ∀ a : Fin 4, win0_2.index t a * S4x9x256x256.size a ≤ (i a).val ∧ (i a).val < win0_2.index t a * S4x9x256x256.size a + S4x9x256x256.size a := by
  show i ∈ ((View.whole main_v2_0).slice (win0_2.rect t)).set ↔ _
  rw [View.set_slice_whole, Rect.mem_set_unit]
  exact Iff.rfl

/-- Every index of the array is in some point's block: row `n` is in the block of point `n / 4`. -/
theorem cover2 (i : S64x9x256x256.Idx) : ∃ t : Fin cfg0.N, (cfg0.win 2).flush t = true ∧ i ∈ ((cfg0.win 2).blk t).view.set := by
  have h0 : (i 0).val < 64 := (i 0).isLt
  have h1 : (i 1).val < 9 := (i 1).isLt
  have h2 : (i 2).val < 256 := (i 2).isLt
  have h3 : (i 3).val < 256 := (i 3).isLt
  have hq : (i 0).val / 4 < cfg0.N := Nat.lt_of_lt_of_eq (by omega : (i 0).val / 4 < 16) (show cfg0.N = 16 from N_0).symm
  obtain ⟨-, -, -, -, -, -, e0, e1, e2, e3, -⟩ := idx_facts ⟨(i 0).val / 4, hq⟩
  have e0' : win0_2.index ⟨(i 0).val / 4, hq⟩ (0 : Fin 4) = (i 0).val / 4 := e0
  refine ⟨⟨(i 0).val / 4, hq⟩, flush0_2 _, ?_⟩
  rw [mem_blk2]
  intro a
  match a with
  | ⟨0, _⟩ => show win0_2.index ⟨(i 0).val / 4, hq⟩ (0 : Fin 4) * 4 ≤ (i 0).val ∧ (i 0).val < win0_2.index ⟨(i 0).val / 4, hq⟩ (0 : Fin 4) * 4 + 4; omega
  | ⟨1, _⟩ => show win0_2.index ⟨(i 0).val / 4, hq⟩ (1 : Fin 4) * 9 ≤ (i 1).val ∧ (i 1).val < win0_2.index ⟨(i 0).val / 4, hq⟩ (1 : Fin 4) * 9 + 9; omega
  | ⟨2, _⟩ => show win0_2.index ⟨(i 0).val / 4, hq⟩ (2 : Fin 4) * 256 ≤ (i 2).val ∧ (i 2).val < win0_2.index ⟨(i 0).val / 4, hq⟩ (2 : Fin 4) * 256 + 256; omega
  | ⟨3, _⟩ => show win0_2.index ⟨(i 0).val / 4, hq⟩ (3 : Fin 4) * 256 ≤ (i 3).val ∧ (i 3).val < win0_2.index ⟨(i 0).val / 4, hq⟩ (3 : Fin 4) * 256 + 256; omega

/-- The first output's array after the region: `arr` of the first input's array as the region finds it. -/
theorem final2 (c : Dev nD) : (dats m 0 c).arrAt 2 cfg0.N = arr (V m c main_v0 : Vec F S64x256x256 .f32) :=
  (dats m 0 c).arrAt_eq_of_cover 2 (arr (V m c main_v0 : Vec F S64x256x256 .f32)) (fun t _ => flushed2_eq m c t) cover2

/-- An index of the second output's array is in point `t`'s block iff each coordinate is in the block's range on its axis. -/
theorem mem_blk3 (t : Fin cfg0.N) (i : S64x9x256x256.Idx) :
    i ∈ ((cfg0.win 3).blk t).view.set ↔ ∀ a : Fin 4, win0_3.index t a * S4x9x256x256.size a ≤ (i a).val ∧ (i a).val < win0_3.index t a * S4x9x256x256.size a + S4x9x256x256.size a := by
  show i ∈ ((View.whole main_v2_1).slice (win0_3.rect t)).set ↔ _
  rw [View.set_slice_whole, Rect.mem_set_unit]
  exact Iff.rfl

/-- Every index of the array is in some point's block: row `n` is in the block of point `n / 4`. -/
theorem cover3 (i : S64x9x256x256.Idx) : ∃ t : Fin cfg0.N, (cfg0.win 3).flush t = true ∧ i ∈ ((cfg0.win 3).blk t).view.set := by
  have h0 : (i 0).val < 64 := (i 0).isLt
  have h1 : (i 1).val < 9 := (i 1).isLt
  have h2 : (i 2).val < 256 := (i 2).isLt
  have h3 : (i 3).val < 256 := (i 3).isLt
  have hq : (i 0).val / 4 < cfg0.N := Nat.lt_of_lt_of_eq (by omega : (i 0).val / 4 < 16) (show cfg0.N = 16 from N_0).symm
  obtain ⟨-, -, -, -, -, -, -, -, -, -, e0, e1, e2, e3⟩ := idx_facts ⟨(i 0).val / 4, hq⟩
  have e0' : win0_3.index ⟨(i 0).val / 4, hq⟩ (0 : Fin 4) = (i 0).val / 4 := e0
  refine ⟨⟨(i 0).val / 4, hq⟩, flush0_3 _, ?_⟩
  rw [mem_blk3]
  intro a
  match a with
  | ⟨0, _⟩ => show win0_3.index ⟨(i 0).val / 4, hq⟩ (0 : Fin 4) * 4 ≤ (i 0).val ∧ (i 0).val < win0_3.index ⟨(i 0).val / 4, hq⟩ (0 : Fin 4) * 4 + 4; omega
  | ⟨1, _⟩ => show win0_3.index ⟨(i 0).val / 4, hq⟩ (1 : Fin 4) * 9 ≤ (i 1).val ∧ (i 1).val < win0_3.index ⟨(i 0).val / 4, hq⟩ (1 : Fin 4) * 9 + 9; omega
  | ⟨2, _⟩ => show win0_3.index ⟨(i 0).val / 4, hq⟩ (2 : Fin 4) * 256 ≤ (i 2).val ∧ (i 2).val < win0_3.index ⟨(i 0).val / 4, hq⟩ (2 : Fin 4) * 256 + 256; omega
  | ⟨3, _⟩ => show win0_3.index ⟨(i 0).val / 4, hq⟩ (3 : Fin 4) * 256 ≤ (i 3).val ∧ (i 3).val < win0_3.index ⟨(i 0).val / 4, hq⟩ (3 : Fin 4) * 256 + 256; omega

/-- The second output's array after the region: `arr` of the second input's array as the region finds it. -/
theorem final3 (c : Dev nD) : (dats m 0 c).arrAt 3 cfg0.N = arr (V m c main_v1 : Vec F S64x256x256 .f32) :=
  (dats m 0 c).arrAt_eq_of_cover 3 (arr (V m c main_v1 : Vec F S64x256x256 .f32)) (fun t _ => flushed3_eq m c t) cover3

end Cert.Unfold3.Kernel

end
-- ==== Proof.Unfold3Spec.lean ====
/-
  The 3×3 unfold of an image times its centre tap, as one function of the input.

  For an image v of 256 × 256 extended reals, give it a border of zeros one pixel wide: padded
  coordinate (r, s), with r and s in [0, 258), holds v (r - 1, s - 1) when both r and s lie in
  [1, 256], and zero on the border. Tap c = 3·ki + kj of the unfold at pixel (i, j) is the padded
  image at (ki + i, kj + j): the neighbour of (i, j) displaced by (ki - 1, kj - 1), zero where the
  neighbour falls off the image. The result keeps the centre tap (c = 4, the pixel itself) and
  multiplies every other tap by the pixel: out (c, i, j) = tap_c (i, j) · v (i, j) for c ≠ 4.
  Over a batch of 4 × 16 images the result is this, image by image.
-/
import Idealize.ShloMosaic.PureOps.Ideal
import Idealize.ShloMosaic.Lib.ValueIdx

noncomputable section

namespace Cert.Unfold3

open Idealize.ShloMosaic Idealize.ShloMosaic.ValueIdx

/-- The shape of one image, of the batch of images, and of the batch of unfolded images. -/
abbrev Img : Shape := ⟨2, ![256, 256]⟩
abbrev Batch : Shape := ⟨4, ![4, 16, 256, 256]⟩
abbrev Taps : Shape := ⟨5, ![4, 16, 9, 256, 256]⟩

/-- The image with a border of zeros one pixel wide, read at the padded coordinates `(r, s)`:
    `v (r - 1, s - 1)` inside, zero on the border (and anywhere further out). -/
def padded (v : FVec Ideal Img .f32) (r s : Nat) : EReal :=
  if h : (1 ≤ r ∧ r ≤ 256) ∧ (1 ≤ s ∧ s ≤ 256) then v (ix2 ⟨r - 1, by omega⟩ ⟨s - 1, by omega⟩) else 0

/-- Tap `c` of the unfold at pixel `(i, j)`, multiplied by the pixel — but for the centre tap `c = 4`,
    which is the pixel itself and is kept as it is. -/
def tapVal (v : FVec Ideal Img .f32) (c : Fin 9) (i j : Fin 256) : EReal :=
  if c.val = 4 then v (ix2 i j) else padded v (c.val / 3 + i.val) (c.val % 3 + j.val) * v (ix2 i j)

/-- Image `(b, ch)` of a batch. -/
def plane (x : FVec Ideal Batch .f32) (b : Fin 4) (ch : Fin 16) : FVec Ideal Img .f32 :=
  fun y => x (ix4 b ch (y 0) (y 1))

/-- The whole result: at `(b, ch, c, i, j)`, tap `c` of image `(b, ch)` at pixel `(i, j)`, times the pixel
    (the pixel itself at `c = 4`). -/
def G (x : FVec Ideal Batch .f32) : FVec Ideal Taps .f32 :=
  fun y => tapVal (plane x (y 0) (y 1)) (y 2) (y 3) (y 4)

theorem G_apply (x : FVec Ideal Batch .f32) (b : Fin 4) (ch : Fin 16) (c : Fin 9) (i j : Fin 256) :
    G x (ix5 b ch c i j) = tapVal (plane x b ch) c i j := rfl

theorem plane_apply (x : FVec Ideal Batch .f32) (b : Fin 4) (ch : Fin 16) (i j : Fin 256) :
    plane x b ch (ix2 i j) = x (ix4 b ch i j) := rfl

/-- Inside the border the padded image is the image. -/
theorem padded_inside (v : FVec Ideal Img .f32) (i j : Fin 256) : padded v (1 + i.val) (1 + j.val) = v (ix2 i j) := by
  have h : (1 ≤ 1 + i.val ∧ 1 + i.val ≤ 256) ∧ (1 ≤ 1 + j.val ∧ 1 + j.val ≤ 256) := by
    have := i.isLt; have := j.isLt; omega
  rw [padded, dif_pos h]
  congr 1
  funext d
  match d with
  | ⟨0, _⟩ => exact Fin.ext (by show 1 + i.val - 1 = i.val; omega)
  | ⟨1, _⟩ => exact Fin.ext (by show 1 + j.val - 1 = j.val; omega)

/-- On the border (and beyond) it is zero. -/
theorem padded_border (v : FVec Ideal Img .f32) (r s : Nat) (h : ¬ ((1 ≤ r ∧ r ≤ 256) ∧ (1 ≤ s ∧ s ≤ 256))) :
    padded v r s = 0 := by
  rw [padded, dif_neg h]

/-- Inside, by the coordinates of the pixel it holds. -/
theorem padded_eq (v : FVec Ideal Img .f32) (r s : Nat) (i j : Fin 256) (hr : r = i.val + 1) (hs : s = j.val + 1) :
    padded v r s = v (ix2 i j) := by
  subst hr hs
  rw [← padded_inside v i j, Nat.add_comm, Nat.add_comm j.val]

end Cert.Unfold3

end
-- ==== Proof.KernelTaps.lean ====
/-
  The kernel body's nine taps, read at one pixel, over the extended reals.

  Each of the four one-pixel moves of an image reads, at pixel (i, j), either zero (on the edge the
  move fills) or the image at the neighbouring pixel. Two moves in a row read the image with a border
  of zeros at the displaced coordinates, and a tap is that reading times the pixel, laid out as a
  1 × 1 × 256 × 256 slab whose entry (0, 0, i, j) is the entry (i, j) of the image.
-/
import proofs.«101597_j76270029242959_2_alg».proof.Proof.KernelTapDefs
import proofs.«101597_j76270029242959_2_alg».proof.Proof.Unfold3Spec
import Idealize.ShloMosaic.Lib.ValueIdx
import Idealize.ShloMosaic.Lib.Pipeline.Value
import Idealize.ShloMosaic.Lib.ValueLayout
import Idealize.ShloMosaic.PureOps.Ideal.Laws

noncomputable section

namespace Cert.Unfold3.Kernel

open Idealize.ShloMosaic Idealize.ShloMosaic.ValueIdx Cert.KernelIdeal Cert.KernelIdeal.Facts₀ Cert.Unfold3

/-- Over the extended reals the fill value is zero. -/
theorem zero_ideal : zero (F := Ideal) = (0 : EReal) := by
  unfold zero
  exact Ideal.ofBits_zero_f32

/-! ## The four moves at a pixel -/

/-- A move down reads zero on the top row. -/
theorem rowDown_top (w : FVec Ideal S256x256 .f32) (i j : Fin 256) (hi : i.val = 0) :
    rowDown w (ix2 i j) = (0 : EReal) := by
  unfold rowDown
  refine (concatenate_pair_apply_left (t := S256x256) (s₁ := S1x256) (s₂ := S255x256) _ _ _ _ (ix2 i j) rfl
    (ix2 (⟨0, Nat.one_pos⟩ : Fin 1) j)
    (fun b => match b with
      | ⟨0, _⟩ => by show 0 = i.val; omega
      | ⟨1, _⟩ => rfl)).trans ?_
  rw [broadcast_apply, zero_ideal]

/-- A move down reads the row above elsewhere. -/
theorem rowDown_below (w : FVec Ideal S256x256 .f32) (i j : Fin 256) (hi : i.val ≠ 0) :
    rowDown w (ix2 i j) = w (ix2 (⟨i.val - 1, by have := i.isLt; omega⟩ : Fin 256) j) := by
  have hlt := i.isLt
  unfold rowDown
  refine (concatenate_pair_apply_right (t := S256x256) (s₁ := S1x256) (s₂ := S255x256) _ _ _ _ (ix2 i j) rfl rfl
    (ix2 (⟨i.val - 1, by omega⟩ : Fin 255) j)
    (fun b => match b with
      | ⟨0, _⟩ => fun hb => absurd rfl hb
      | ⟨1, _⟩ => fun _ => rfl)
    (by show (i.val - 1) + 1 = i.val; omega)).trans ?_
  refine extractStridedSlice_apply _ _ _ _ _ (fun a => match a with
    | ⟨0, _⟩ => by show i.val - 1 = 0 + (i.val - 1); omega
    | ⟨1, _⟩ => by show j.val = 0 + j.val; omega)

/-- A move up reads zero on the bottom row. -/
theorem rowUp_bottom (w : FVec Ideal S256x256 .f32) (i j : Fin 256) (hi : i.val = 255) :
    rowUp w (ix2 i j) = (0 : EReal) := by
  unfold rowUp
  refine (concatenate_pair_apply_right (t := S256x256) (s₁ := S255x256) (s₂ := S1x256) _ _ _ _ (ix2 i j) rfl rfl
    (ix2 (⟨0, Nat.one_pos⟩ : Fin 1) j)
    (fun b => match b with
      | ⟨0, _⟩ => fun hb => absurd rfl hb
      | ⟨1, _⟩ => fun _ => rfl)
    (by show 0 + 255 = i.val; omega)).trans ?_
  rw [broadcast_apply, zero_ideal]

/-- A move up reads the row below elsewhere. -/
theorem rowUp_above (w : FVec Ideal S256x256 .f32) (i j : Fin 256) (hi : i.val ≠ 255) :
    rowUp w (ix2 i j) = w (ix2 (⟨i.val + 1, by have := i.isLt; omega⟩ : Fin 256) j) := by
  have hlt := i.isLt
  unfold rowUp
  refine (concatenate_pair_apply_left (t := S256x256) (s₁ := S255x256) (s₂ := S1x256) _ _ _ _ (ix2 i j) rfl
    (ix2 (⟨i.val, by omega⟩ : Fin 255) j)
    (fun b => match b with
      | ⟨0, _⟩ => rfl
      | ⟨1, _⟩ => rfl)).trans ?_
  refine extractStridedSlice_apply _ _ _ _ _ (fun a => match a with
    | ⟨0, _⟩ => by show i.val + 1 = 1 + i.val; omega
    | ⟨1, _⟩ => by show j.val = 0 + j.val; omega)

/-- A move right reads zero on the first column. -/
theorem colRight_first (w : FVec Ideal S256x256 .f32) (i j : Fin 256) (hj : j.val = 0) :
    colRight w (ix2 i j) = (0 : EReal) := by
  unfold colRight
  refine (concatenate_pair_apply_left (t := S256x256) (s₁ := S256x1) (s₂ := S256x255) _ _ _ _ (ix2 i j) rfl
    (ix2 i (⟨0, Nat.one_pos⟩ : Fin 1))
    (fun b => match b with
      | ⟨0, _⟩ => rfl
      | ⟨1, _⟩ => by show 0 = j.val; omega)).trans ?_
  rw [broadcast_apply, zero_ideal]

/-- A move right reads the column before elsewhere. -/
theorem colRight_after (w : FVec Ideal S256x256 .f32) (i j : Fin 256) (hj : j.val ≠ 0) :
    colRight w (ix2 i j) = w (ix2 i (⟨j.val - 1, by have := j.isLt; omega⟩ : Fin 256)) := by
  have hlt := j.isLt
  unfold colRight
  refine (concatenate_pair_apply_right (t := S256x256) (s₁ := S256x1) (s₂ := S256x255) _ _ _ _ (ix2 i j) rfl rfl
    (ix2 i (⟨j.val - 1, by omega⟩ : Fin 255))
    (fun b => match b with
      | ⟨0, _⟩ => fun _ => rfl
      | ⟨1, _⟩ => fun hb => absurd rfl hb)
    (by show (j.val - 1) + 1 = j.val; omega)).trans ?_
  refine extractStridedSlice_apply _ _ _ _ _ (fun a => match a with
    | ⟨0, _⟩ => by show i.val = 0 + i.val; omega
    | ⟨1, _⟩ => by show j.val - 1 = 0 + (j.val - 1); omega)

/-- A move left reads zero on the last column. -/
theorem colLeft_last (w : FVec Ideal S256x256 .f32) (i j : Fin 256) (hj : j.val = 255) :
    colLeft w (ix2 i j) = (0 : EReal) := by
  unfold colLeft
  refine (concatenate_pair_apply_right (t := S256x256) (s₁ := S256x255) (s₂ := S256x1) _ _ _ _ (ix2 i j) rfl rfl
    (ix2 i (⟨0, Nat.one_pos⟩ : Fin 1))
    (fun b => match b with
      | ⟨0, _⟩ => fun _ => rfl
      | ⟨1, _⟩ => fun hb => absurd rfl hb)
    (by show 0 + 255 = j.val; omega)).trans ?_
  rw [broadcast_apply, zero_ideal]

/-- A move left reads the column after elsewhere. -/
theorem colLeft_before (w : FVec Ideal S256x256 .f32) (i j : Fin 256) (hj : j.val ≠ 255) :
    colLeft w (ix2 i j) = w (ix2 i (⟨j.val + 1, by have := j.isLt; omega⟩ : Fin 256)) := by
  have hlt := j.isLt
  unfold colLeft
  refine (concatenate_pair_apply_left (t := S256x256) (s₁ := S256x255) (s₂ := S256x1) _ _ _ _ (ix2 i j) rfl
    (ix2 i (⟨j.val, by omega⟩ : Fin 255))
    (fun b => match b with
      | ⟨0, _⟩ => rfl
      | ⟨1, _⟩ => rfl)).trans ?_
  refine extractStridedSlice_apply _ _ _ _ _ (fun a => match a with
    | ⟨0, _⟩ => by show i.val = 0 + i.val; omega
    | ⟨1, _⟩ => by show j.val + 1 = 1 + j.val; omega)

/-! ## One move as the bordered image -/

/-- A move down reads the bordered image one row up. -/
theorem rowDown_padded (w : FVec Ideal S256x256 .f32) (i j : Fin 256) :
    rowDown w (ix2 i j) = padded w (0 + i.val) (1 + j.val) := by
  have hi' := i.isLt
  have hj' := j.isLt
  by_cases hi : i.val = 0
  · rw [rowDown_top w i j hi]
    exact (padded_border w _ _ (by omega)).symm
  · rw [rowDown_below w i j hi]
    exact (padded_eq w _ _ _ _ (by show 0 + i.val = (i.val - 1) + 1; omega) (by omega)).symm

/-- A move up reads the bordered image one row down. -/
theorem rowUp_padded (w : FVec Ideal S256x256 .f32) (i j : Fin 256) :
    rowUp w (ix2 i j) = padded w (2 + i.val) (1 + j.val) := by
  have hi' := i.isLt
  have hj' := j.isLt
  by_cases hi : i.val = 255
  · rw [rowUp_bottom w i j hi]
    exact (padded_border w _ _ (by omega)).symm
  · rw [rowUp_above w i j hi]
    exact (padded_eq w _ _ _ _ (by show 2 + i.val = (i.val + 1) + 1; omega) (by omega)).symm

/-- A move right reads the bordered image one column back. -/
theorem colRight_padded (w : FVec Ideal S256x256 .f32) (i j : Fin 256) :
    colRight w (ix2 i j) = padded w (1 + i.val) (0 + j.val) := by
  have hi' := i.isLt
  have hj' := j.isLt
  by_cases hj : j.val = 0
  · rw [colRight_first w i j hj]
    exact (padded_border w _ _ (by omega)).symm
  · rw [colRight_after w i j hj]
    exact (padded_eq w _ _ _ _ (by omega) (by show 0 + j.val = (j.val - 1) + 1; omega)).symm

/-- A move left reads the bordered image one column on. -/
theorem colLeft_padded (w : FVec Ideal S256x256 .f32) (i j : Fin 256) :
    colLeft w (ix2 i j) = padded w (1 + i.val) (2 + j.val) := by
  have hi' := i.isLt
  have hj' := j.isLt
  by_cases hj : j.val = 255
  · rw [colLeft_last w i j hj]
    exact (padded_border w _ _ (by omega)).symm
  · rw [colLeft_before w i j hj]
    exact (padded_eq w _ _ _ _ (by omega) (by show 2 + j.val = (j.val + 1) + 1; omega)).symm

/-! ## A row move then a column move as the bordered image -/

theorem colRight_rowDown (v : FVec Ideal S256x256 .f32) (i j : Fin 256) :
    colRight (rowDown v) (ix2 i j) = padded v (0 + i.val) (0 + j.val) := by
  have hi' := i.isLt
  have hj' := j.isLt
  by_cases hj : j.val = 0
  · rw [colRight_first _ i j hj]
    exact (padded_border v _ _ (by omega)).symm
  · rw [colRight_after _ i j hj, rowDown_padded]
    exact congrArg (padded v (0 + i.val)) (by show 1 + (j.val - 1) = 0 + j.val; omega)

theorem colLeft_rowDown (v : FVec Ideal S256x256 .f32) (i j : Fin 256) :
    colLeft (rowDown v) (ix2 i j) = padded v (0 + i.val) (2 + j.val) := by
  have hi' := i.isLt
  have hj' := j.isLt
  by_cases hj : j.val = 255
  · rw [colLeft_last _ i j hj]
    exact (padded_border v _ _ (by omega)).symm
  · rw [colLeft_before _ i j hj, rowDown_padded]
    exact congrArg (padded v (0 + i.val)) (by show 1 + (j.val + 1) = 2 + j.val; omega)

theorem colRight_rowUp (v : FVec Ideal S256x256 .f32) (i j : Fin 256) :
    colRight (rowUp v) (ix2 i j) = padded v (2 + i.val) (0 + j.val) := by
  have hi' := i.isLt
  have hj' := j.isLt
  by_cases hj : j.val = 0
  · rw [colRight_first _ i j hj]
    exact (padded_border v _ _ (by omega)).symm
  · rw [colRight_after _ i j hj, rowUp_padded]
    exact congrArg (padded v (2 + i.val)) (by show 1 + (j.val - 1) = 0 + j.val; omega)

theorem colLeft_rowUp (v : FVec Ideal S256x256 .f32) (i j : Fin 256) :
    colLeft (rowUp v) (ix2 i j) = padded v (2 + i.val) (2 + j.val) := by
  have hi' := i.isLt
  have hj' := j.isLt
  by_cases hj : j.val = 255
  · rw [colLeft_last _ i j hj]
    exact (padded_border v _ _ (by omega)).symm
  · rw [colLeft_before _ i j hj, rowUp_padded]
    exact congrArg (padded v (2 + i.val)) (by show 1 + (j.val + 1) = 2 + j.val; omega)

/-! ## The slab layout and the taps -/

/-- Entry `(0, 0, i, j)` of the slab of an image is entry `(i, j)` of the image: both sit at
    row-major position `256 i + j`. -/
theorem slab_apply (w : FVec Ideal S256x256 .f32) (i j : Fin 256) :
    shapeCast S1x1x256x256 w shapeCasts_S256x256_S1x1x256x256 (ix4 (0 : Fin 1) (0 : Fin 1) i j) = w (ix2 i j) := by
  refine shapeCast_apply _ _ _ (ix2 i j) ?_
  rw [Shape.rowMajor_val_two, Shape.rowMajor_val_four]
  show i.val * 256 + j.val = (((0 : Nat) * 1 + 0) * 256 + i.val) * 256 + j.val
  omega

/-- A moved image times the image, read at a pixel of the slab. -/
theorem slabMul_apply (w v : FVec Ideal S256x256 .f32) (i j : Fin 256) :
    slabMul w v (ix4 (0 : Fin 1) (0 : Fin 1) i j) = w (ix2 i j) * v (ix2 i j) := by
  unfold slabMul
  rw [slab_apply, mulf_apply]

/-- Tap `c` of the body at pixel `(i, j)` of its slab is tap `c` of the unfold times the pixel
    (the pixel itself at the centre tap). -/
theorem tap_apply (c : Fin 9) (v : FVec Ideal S256x256 .f32) (i j : Fin 256) :
    tap (F := Ideal) c v (ix4 (0 : Fin 1) (0 : Fin 1) i j) = tapVal v c i j := by
  match c with
  | ⟨0, _⟩ =>
    show slabMul (colRight (rowDown v)) v _ = _
    rw [slabMul_apply, colRight_rowDown, tapVal, if_neg (by show ¬ ((0 : Nat) = 4); omega)]
    show _ = padded v (0 / 3 + i.val) (0 % 3 + j.val) * v (ix2 i j)
    rfl
  | ⟨1, _⟩ =>
    show slabMul (rowDown v) v _ = _
    rw [slabMul_apply, rowDown_padded, tapVal, if_neg (by show ¬ ((1 : Nat) = 4); omega)]
    show _ = padded v (1 / 3 + i.val) (1 % 3 + j.val) * v (ix2 i j)
    rfl
  | ⟨2, _⟩ =>
    show slabMul (colLeft (rowDown v)) v _ = _
    rw [slabMul_apply, colLeft_rowDown, tapVal, if_neg (by show ¬ ((2 : Nat) = 4); omega)]
    show _ = padded v (2 / 3 + i.val) (2 % 3 + j.val) * v (ix2 i j)
    rfl
  | ⟨3, _⟩ =>
    show slabMul (colRight v) v _ = _
    rw [slabMul_apply, colRight_padded, tapVal, if_neg (by show ¬ ((3 : Nat) = 4); omega)]
    show _ = padded v (3 / 3 + i.val) (3 % 3 + j.val) * v (ix2 i j)
    rfl
  | ⟨4, _⟩ =>
    show shapeCast S1x1x256x256 v shapeCasts_S256x256_S1x1x256x256 _ = _
    rw [slab_apply, tapVal, if_pos rfl]
  | ⟨5, _⟩ =>
    show slabMul (colLeft v) v _ = _
    rw [slabMul_apply, colLeft_padded, tapVal, if_neg (by show ¬ ((5 : Nat) = 4); omega)]
    show _ = padded v (5 / 3 + i.val) (5 % 3 + j.val) * v (ix2 i j)
    rfl
  | ⟨6, _⟩ =>
    show slabMul (colRight (rowUp v)) v _ = _
    rw [slabMul_apply, colRight_rowUp, tapVal, if_neg (by show ¬ ((6 : Nat) = 4); omega)]
    show _ = padded v (6 / 3 + i.val) (6 % 3 + j.val) * v (ix2 i j)
    rfl
  | ⟨7, _⟩ =>
    show slabMul (rowUp v) v _ = _
    rw [slabMul_apply, rowUp_padded, tapVal, if_neg (by show ¬ ((7 : Nat) = 4); omega)]
    show _ = padded v (7 / 3 + i.val) (7 % 3 + j.val) * v (ix2 i j)
    rfl
  | ⟨8, _⟩ =>
    show slabMul (colLeft (rowUp v)) v _ = _
    rw [slabMul_apply, colLeft_rowUp, tapVal, if_neg (by show ¬ ((8 : Nat) = 4); omega)]
    show _ = padded v (8 / 3 + i.val) (8 % 3 + j.val) * v (ix2 i j)
    rfl

end Cert.Unfold3.Kernel

end
-- ==== Proof.KernelRun.lean ====
/-
  The kernel's run, read: both results as the unfold of the arguments.

  Before the region the host reshapes each argument [4, 16, 256, 256] to 64 images; image n of the
  reshaped array is image (n / 16, n % 16) of the argument. After the region it reshapes each output
  array [64, 9, 256, 256] to [4, 16, 9, 256, 256]; entry (b, ch, c, i, j) of the result is entry
  (16 b + ch, c, i, j) of the array, which is tap c of image 16 b + ch of the reshaped argument,
  that is of image (b, ch) of the argument: the specification's function.
-/
import proofs.«101597_j76270029242959_2_alg».proof.Proof.KernelArray
import proofs.«101597_j76270029242959_2_alg».proof.Proof.KernelTaps
import proofs.«101597_j76270029242959_2_alg».proof.Proof.Unfold3Spec
import Idealize.ShloMosaic.Lib.StableHlo.Run
import Idealize.ShloMosaic.Lib.Pipeline.Value
import Idealize.ShloMosaic.Lib.ValueIdx

set_option maxRecDepth 16384

noncomputable section

namespace Cert.Unfold3.Kernel

open Idealize.ShloMosaic Idealize.ShloMosaic.TcCoe Idealize.ShloMosaic.ValueIdx Idealize.SL.Sem Cert.KernelIdeal Cert.KernelIdeal.Gen
open Idealize.ShloMosaic.StableHlo Cert.Unfold3
open Idealize.ShloMosaic.Pipeline (Dat)

variable (m : (ℓ : Loc nD τ sig) → Buf (Elt Ideal) ℓ) (ρ : Dev nD → PrngReg)

/-- The output array at an index, over the extended reals. -/
theorem arr_apply (X : Vec Ideal S64x256x256 .f32) (n : Fin 64) (c : Fin 9) (i j : Fin 256) :
    arr X (ix4 n c i j) = tapVal (image X n) c i j := by
  show tap c (image X n) (ix4 0 0 i j) = _
  exact tap_apply c _ i j

/-- The region finds the first argument reshaped to 64 images. -/
theorem V_main_v0 (c : Dev nD) : (V m c main_v0 : Vec Ideal S64x256x256 .f32)
    = shapeCast S64x256x256 (m ((c : Thread nD τ).loc main_arg0)) Gen.shapeCasts_S4x16x256x256_S64x256x256 := by
  show StableHlo.after hostOps0 (fun b => m (c, b)) (Proc.devRef .tc main_v0) = _
  after_results
  rfl

/-- The region finds the second argument reshaped to 64 images. -/
theorem V_main_v1 (c : Dev nD) : (V m c main_v1 : Vec Ideal S64x256x256 .f32)
    = shapeCast S64x256x256 (m ((c : Thread nD τ).loc main_arg1)) Gen.shapeCasts_S4x16x256x256_S64x256x256 := by
  show StableHlo.after hostOps0 (fun b => m (c, b)) (Proc.devRef .tc main_v1) = _
  after_results
  rfl

/-- Image `16 b + ch` of the reshaped batch is image `(b, ch)` of the batch. -/
theorem image_reshape (x : FVec Ideal Batch .f32) (b : Fin 4) (ch : Fin 16) (n : Fin 64) (hn : n.val = b.val * 16 + ch.val) :
    image (shapeCast S64x256x256 x Gen.shapeCasts_S4x16x256x256_S64x256x256) n = plane x b ch := by
  funext z
  obtain ⟨i, j, rfl⟩ : ∃ (i j : Fin 256), z = ix2 i j := ⟨z 0, z 1, eq_ix2 z⟩
  show shapeCast S64x256x256 x Gen.shapeCasts_S4x16x256x256_S64x256x256 (ix3 n i j) = x (ix4 b ch i j)
  refine shapeCast_apply x _ (ix3 n i j) (ix4 b ch i j) ?_
  rw [Shape.rowMajor_val_four, Shape.rowMajor_val_three]
  show ((b.val * 16 + ch.val) * 256 + i.val) * 256 + j.val = (n.val * 256 + i.val) * 256 + j.val
  rw [hn]

/-- After the host's last lines the first result is the first output's array reshaped. -/
theorem tail_v3 (c : Dev nD) :
    Pipeline.afterTail₀ cfgs (dats m) 0 (V0 m) [hostOps1] c main_v3
      = shapeCast S4x16x9x256x256 ((dats m 0 c).arrAt 2 cfg0.N) Gen.shapeCasts_S64x9x256x256_S4x16x9x256x256 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2_0)
      = (dats m 0 c).arrAt 2 cfg0.N := Pipeline.withArrays_arr spec0 launch0.win.arr_inj c _ _ 2
  rw [e]
  rfl

/-- After the host's last lines the second result is the second output's array reshaped. -/
theorem tail_v4 (c : Dev nD) :
    Pipeline.afterTail₀ cfgs (dats m) 0 (V0 m) [hostOps1] c main_v4
      = shapeCast S4x16x9x256x256 ((dats m 0 c).arrAt 3 cfg0.N) Gen.shapeCasts_S64x9x256x256_S4x16x9x256x256 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2_1)
      = (dats m 0 c).arrAt 3 cfg0.N := Pipeline.withArrays_arr spec0 launch0.win.arr_inj c _ _ 3
  rw [e]
  rfl

/-- Reshape to 64 images, unfold image by image, reshape back: the specification's function of the batch. -/
theorem unfold_of_reshape (x : FVec Ideal Batch .f32) :
    (shapeCast S4x16x9x256x256 (arr (F := Ideal) (shapeCast S64x256x256 x Gen.shapeCasts_S4x16x256x256_S64x256x256))
      Gen.shapeCasts_S64x9x256x256_S4x16x9x256x256 : FVec Ideal Taps .f32) = G x := by
  funext y
  obtain ⟨b, ch, c, i, j, rfl⟩ : ∃ (b : Fin 4) (ch : Fin 16) (c : Fin 9) (i j : Fin 256), y = ix5 b ch c i j :=
    ⟨y 0, y 1, y 2, y 3, y 4, eq_ix5 y⟩
  have hb := b.isLt
  have hch := ch.isLt
  refine (shapeCast_apply _ _ (ix5 b ch c i j) (ix4 (⟨b.val * 16 + ch.val, by omega⟩ : Fin 64) c i j) ?_).trans ?_
  · rw [Shape.rowMajor_val_four, Shape.rowMajor_val_five]
    rfl
  · rw [arr_apply, image_reshape x b ch _ rfl, G_apply]

/-- The first result is the specification's function of the first argument. -/
theorem result_v3 (c : Dev nD) :
    Pipeline.afterTail₀ cfgs (dats m) 0 (V0 m) [hostOps1] c main_v3 = G (m ((c : Thread nD τ).loc main_arg0)) := by
  rw [tail_v3, final2, V_main_v0]
  exact unfold_of_reshape _

/-- The second result is the specification's function of the second argument. -/
theorem result_v4 (c : Dev nD) :
    Pipeline.afterTail₀ cfgs (dats m) 0 (V0 m) [hostOps1] c main_v4 = G (m ((c : Thread nD τ).loc main_arg1)) := by
  rw [tail_v4, final3, V_main_v1]
  exact unfold_of_reshape _

/-- The kernel's run: every weakly fair execution terminates with both results at the specification's function of
    the arguments, and the arguments unchanged. -/
theorem run : θ_run defs (onTc (τ := τ) (main (F := Ideal))) ⟨m, fun _ => 0, ρ⟩ (fun r => ∀ c : Dev nD,
      r.2.mem ((c.tc : Thread nD τ).loc main_v3) = G (m ((c.tc : Thread nD τ).loc main_arg0))
      ∧ r.2.mem ((c.tc : Thread nD τ).loc main_v4) = G (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      ((h c).2 main_v3 (Pipeline.mem_restRefs_of main_v3 (by decide) (by decide))).trans (result_v3 m c),
      ((h c).2 main_v4 (Pipeline.mem_restRefs_of main_v4 (by decide) (by decide))).trans (result_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Unfold3.Kernel

end
-- ==== Proof.LibScatterLanding.lean ====
/-
  A scatter whose body returns the update (a "set"), when every update index lands somewhere
  inside the operand and no two update indices land on the same element.

  The scatter visits the update indices one after another; the visit of update index j replaces
  the element of the running result at the index j lands on, here by the update's element at j.
  Write φ j for the index j lands on. After the visits of a list l of positions, the running
  result at an index i that no position of l lands on is the starting array's element at i; and
  when φ is injective and a position of l lands on i, it is the update's element at that position
  (no later visit can change it, since a later visit landing on i would be the same position).
  The full schedule visits every position: at φ j the result is the update's element at j, and
  at an index outside the range of φ it is the operand's element.
-/
import Idealize.ShloMosaic.PureOps.ShapeOps

namespace Idealize.ShloMosaic

variable {s si u : Shape} {w : Nat} {α : Type}

/-- The running result after the visits of the positions in `l`, read at an index `i` that no
    position of `l` lands on, is the starting array's element at `i`. Induction on `l` with the
    starting array general: the visit of the head changes the starting array at another index. -/
theorem Host.scatter_visits_missed (d : ScatterDims s si u) (idx : IVec si w) (upd : u.Idx → α)
    (φ : u.Idx → s.Idx) (h : ∀ j, d.resultIdx? j idx = some (φ j)) (i : s.Idx)
    (l : List (Fin u.numel)) (hl : ∀ n ∈ l, φ (u.rowMajor.symm n) ≠ i) (x : s.Idx → α) :
    l.foldl (fun r n =>
        match d.resultIdx? (u.rowMajor.symm n) idx with
        | some i => fun i' => if i' = i then upd (u.rowMajor.symm n) else r i'
        | none => r) x i
      = x i := by
  induction l generalizing x with
  | nil => rfl
  | cons n l ih =>
    rw [List.foldl_cons, ih (fun m hm => hl m (List.mem_cons_of_mem _ hm))]
    simp only [h]
    have hn : i ≠ φ (u.rowMajor.symm n) := fun e => hl n List.mem_cons_self e.symm
    rw [if_neg hn]

/-- The running result after the visits of the positions in `l`, read at the index a position
    `n0` of `l` lands on, is the update's element at `n0`, when no two update indices land on the
    same element. Induction on `l` with the starting array general: if `n0` is in the tail the
    tail decides; if not, the head is `n0`, its visit writes the update's element, and no position
    of the tail lands there again. -/
theorem Host.scatter_visits_landed (d : ScatterDims s si u) (idx : IVec si w) (upd : u.Idx → α)
    (φ : u.Idx → s.Idx) (h : ∀ j, d.resultIdx? j idx = some (φ j)) (hinj : Function.Injective φ)
    (n0 : Fin u.numel) (l : List (Fin u.numel)) (hl : n0 ∈ l) (x : s.Idx → α) :
    l.foldl (fun r n =>
        match d.resultIdx? (u.rowMajor.symm n) idx with
        | some i => fun i' => if i' = i then upd (u.rowMajor.symm n) else r i'
        | none => r) x (φ (u.rowMajor.symm n0))
      = upd (u.rowMajor.symm n0) := by
  induction l generalizing x with
  | nil => exact absurd hl List.not_mem_nil
  | cons n l ih =>
    rw [List.foldl_cons]
    by_cases ht : n0 ∈ l
    · exact ih ht _
    · have hn : n0 = n := by
        rcases List.mem_cons.1 hl with e | e
        · exact e
        · exact absurd e ht
      subst hn
      have hmiss : ∀ m ∈ l, φ (u.rowMajor.symm m) ≠ φ (u.rowMajor.symm n0) := fun m hm e => by
        have := u.rowMajor.symm.injective (hinj e)
        exact ht (this ▸ hm)
      rw [Host.scatter_visits_missed d idx upd φ h _ l hmiss]
      simp only [h]
      exact if_pos trivial

/-- A scatter whose body returns the update's element (a `set`), whose every update index `j`
    lands on `φ j` inside the operand (`h`), no two on the same element (`hinj`), holds the
    update's element at `j` at the index `φ j`. -/
theorem Host.scatter_set_landed (d : ScatterDims s si u) (x : s.Idx → α) (idx : IVec si w) (upd : u.Idx → α)
    (φ : u.Idx → s.Idx) (h : ∀ j, d.resultIdx? j idx = some (φ j)) (hinj : Function.Injective φ) (j : u.Idx) :
    Host.scatter d (fun _ b => b) x idx upd (φ j) = upd j := by
  have key := Host.scatter_visits_landed d idx upd φ h hinj (u.rowMajor j) (List.finRange u.numel)
    (List.mem_finRange _) x
  rw [Equiv.symm_apply_apply] at key
  exact key

/-- A scatter whose body returns the update's element (a `set`), whose every update index `j`
    lands on `φ j` inside the operand (`h`), keeps the operand's element at every index `i` that
    no update index lands on. -/
theorem Host.scatter_set_missed (d : ScatterDims s si u) (x : s.Idx → α) (idx : IVec si w) (upd : u.Idx → α)
    (φ : u.Idx → s.Idx) (h : ∀ j, d.resultIdx? j idx = some (φ j)) (i : s.Idx) (hi : ∀ j, φ j ≠ i) :
    Host.scatter d (fun _ b => b) x idx upd i = x i :=
  Host.scatter_visits_missed d idx upd φ h i (List.finRange u.numel) (fun n _ => hi _) x

end Idealize.ShloMosaic
-- ==== Proof.RefScatter.lean ====
/-
  The reference's scatter: a [4,16,256,256] array written into plane 4 of the third axis of a
  [4,16,9,256,256] array (`out.at[:, :, 4].set(v)`), read at one index.

  The scatter has one scatter index, the constant 4, which is the start of the window on the
  third axis of the operand; the other four axes of the operand are window axes, carrying the
  update's four coordinates from start 0. So update index (b, ch, i, j) lands on the operand index
  (b, ch, 4, i, j): always inside the operand, and no two update indices on the same element.
  The body returns the update's element. Hence the result at (b, ch, c, i, j) is the update's
  element at (b, ch, i, j) when c = 4 and the operand's element otherwise.
-/
import proofs.«101597_j76270029242959_2_alg».proof.Proof.Gen.ReferenceIdeal
import proofs.«101597_j76270029242959_2_alg».proof.Proof.LibScatterLanding
import Idealize.ShloMosaic.Lib.ValueIdx

namespace Cert.Unfold3.Ref

open Idealize.ShloMosaic Idealize.ShloMosaic.ValueIdx Cert.ReferenceIdeal

/-- The operand index update index `j` lands on: plane 4 of the third axis, and `j`'s four
    coordinates on the other axes. -/
def centreIdx (j : S4x16x256x256.Idx) : S4x16x9x256x256.Idx := ix5 (j 0) (j 1) (4 : Fin 9) (j 2) (j 3)

/-- Two update indices landing on the same element are equal: each coordinate of `j` is a
    coordinate of the index it lands on. -/
theorem centreIdx_injective : Function.Injective centreIdx := by
  intro j j' e
  funext a
  match a with
  | ⟨0, _⟩ => exact congrFun e ⟨0, by decide⟩
  | ⟨1, _⟩ => exact congrFun e ⟨1, by decide⟩
  | ⟨2, _⟩ => exact congrFun e ⟨3, by decide⟩
  | ⟨3, _⟩ => exact congrFun e ⟨4, by decide⟩

/-- On every operand axis, the window's start plus the window coordinate of update index `j` is
    the coordinate of `centreIdx j`: on the third axis the start is the scatter index 4 and the
    axis is not a window axis (coordinate 0); on the other axes the start is 0 and the window
    coordinate is `j`'s. One case per axis; the lists of axes are literal. -/
theorem start_add_window (idx : IVec S1 32) (hidx : ∀ k, idx k = 4#32) (j : S4x16x256x256.Idx)
    (a : Fin S4x16x9x256x256.rank) :
    ScatterDims.start scatter_S4x16x9x256x256_S1_S4x16x256x256_0123_2_2_0 j idx a
        + (ScatterDims.window scatter_S4x16x9x256x256_S1_S4x16x256x256_0123_2_2_0 j a : Nat)
      = ((centreIdx j a).val : Int) := by
  match a with
  | ⟨0, _⟩ => show (0 : Int) + ((j 0).val : Nat) = ((j 0).val : Nat); exact Int.zero_add _
  | ⟨1, _⟩ => show (0 : Int) + ((j 1).val : Nat) = ((j 1).val : Nat); exact Int.zero_add _
  | ⟨2, _⟩ =>
    have h2 : ScatterDims.start scatter_S4x16x9x256x256_S1_S4x16x256x256_0123_2_2_0 j idx ⟨2, by decide⟩ = 4 := by
      unfold ScatterDims.start
      rw [dif_pos (by decide), hidx]
      rfl
    rw [h2]
    rfl
  | ⟨3, _⟩ => show (0 : Int) + ((j 2).val : Nat) = ((j 2).val : Nat); exact Int.zero_add _
  | ⟨4, _⟩ => show (0 : Int) + ((j 3).val : Nat) = ((j 3).val : Nat); exact Int.zero_add _

/-- Every update index `j` lands on `centreIdx j`, inside the operand. -/
theorem resultIdx_centre (idx : IVec S1 32) (hidx : ∀ k, idx k = 4#32) (j : S4x16x256x256.Idx) :
    ScatterDims.resultIdx? scatter_S4x16x9x256x256_S1_S4x16x256x256_0123_2_2_0 j idx = some (centreIdx j) := by
  have hsw := start_add_window idx hidx j
  unfold ScatterDims.resultIdx?
  rw [dif_pos (fun a => by
    rw [hsw a]; exact ⟨Int.natCast_nonneg _, Int.ofNat_lt.2 (centreIdx j a).isLt⟩)]
  congr 1
  funext a
  apply Fin.ext
  show (ScatterDims.start scatter_S4x16x9x256x256_S1_S4x16x256x256_0123_2_2_0 j idx a
        + (ScatterDims.window scatter_S4x16x9x256x256_S1_S4x16x256x256_0123_2_2_0 j a : Nat)).toNat
      = (centreIdx j a).val
  rw [hsw a]
  exact Int.toNat_natCast _

/-- The reference's scatter read at `(b, ch, c, i, j)`: the update's element at `(b, ch, i, j)` on
    plane `c = 4`, the operand's element on the other planes. -/
theorem scatter_centre {α : Type} (x : S4x16x9x256x256.Idx → α) (idx : IVec S1 32) (hidx : ∀ k, idx k = 4#32)
    (upd : S4x16x256x256.Idx → α) (b : Fin 4) (ch : Fin 16) (c : Fin 9) (i j : Fin 256) :
    Host.scatter scatter_S4x16x9x256x256_S1_S4x16x256x256_0123_2_2_0 (fun _ b => b) x idx upd (ix5 b ch c i j)
      = if c.val = 4 then upd (ix4 b ch i j) else x (ix5 b ch c i j) := by
  by_cases hc : c.val = 4
  · rw [if_pos hc]
    have hc' : c = (4 : Fin 9) := Fin.ext hc
    subst hc'
    exact Host.scatter_set_landed scatter_S4x16x9x256x256_S1_S4x16x256x256_0123_2_2_0 x idx upd centreIdx
      (resultIdx_centre idx hidx) centreIdx_injective (ix4 b ch i j)
  · rw [if_neg hc]
    refine Host.scatter_set_missed scatter_S4x16x9x256x256_S1_S4x16x256x256_0123_2_2_0 x idx upd centreIdx
      (resultIdx_centre idx hidx) _ (fun j' e => hc ?_)
    have h2 := congrFun e (2 : Fin 5)
    change (4 : Fin 9) = c at h2
    rw [← h2]
    rfl

end Cert.Unfold3.Ref
-- ==== Proof.RefStack.lean ====
/-
  The reference's stack of nine shifted windows of the zero-bordered input, read at an index.

  The reference gives each 256 × 256 image of the batch a border of zeros one pixel wide, cuts the nine
  256 × 256 windows of the bordered image whose top-left corners are (ki, kj), ki and kj in {0, 1, 2},
  and stacks them along a new axis in the order c = 3·ki + kj. So entry (b, ch, c, i, j) of the stack is
  the bordered image (b, ch) at the padded coordinates (c / 3 + i, c % 3 + j).
-/
import proofs.«101597_j76270029242959_2_alg».proof.Proof.Gen.ReferenceIdeal.Read
import proofs.«101597_j76270029242959_2_alg».proof.Proof.Unfold3Spec
import Idealize.ShloMosaic.Lib.ValueIdx
import Idealize.ShloMosaic.Lib.Pipeline.Value
import Idealize.ShloMosaic.PureOps.Ideal.Laws

noncomputable section

namespace Cert.Unfold3.Ref

open Idealize.ShloMosaic Idealize.ShloMosaic.ValueIdx Cert.ReferenceIdeal Cert.ReferenceIdeal.Read Cert.Unfold3

/-- Padding the last two axes of the batch by one element on each side, read at the padded index
    `(b, ch, r, s)`: when the padding value is zero this is the zero-bordered image `(b, ch)` at `(r, s)`.
    The index is inside the unpadded region exactly when `1 ≤ r ≤ 256` and `1 ≤ s ≤ 256`, and there it
    reads the batch at `(b, ch, r - 1, s - 1)`. -/
theorem pad_zero_apply (x : FVec Ideal Batch .f32) (v : S_.Idx → EReal)
    (hp : S4x16x256x256.Pads (![0, 0, 1, 1] : Fin 4 → Nat) ![0, 0, 1, 1] ![0, 0, 0, 0] S4x16x258x258)
    (hu : 0 < S_.numel) (hv : v (Shape.Idx.first hu) = 0)
    (b : Fin 4) (ch : Fin 16) (r s : Fin 258) :
    pad S4x16x258x258 ![0, 0, 1, 1] ![0, 0, 1, 1] ![0, 0, 0, 0] x v hp hu (ix4 b ch r s)
      = padded (plane x b ch) r.val s.val := by
  unfold pad
  split
  · next hin =>
    have h2 := hin ⟨2, by decide⟩
    have h3 := hin ⟨3, by decide⟩
    change 1 ≤ r.val ∧ (r.val - 1) % (0 + 1) = 0 ∧ (r.val - 1) / (0 + 1) < 256 at h2
    change 1 ≤ s.val ∧ (s.val - 1) % (0 + 1) = 0 ∧ (s.val - 1) / (0 + 1) < 256 at h3
    have h : (1 ≤ r.val ∧ r.val ≤ 256) ∧ (1 ≤ s.val ∧ s.val ≤ 256) := by omega
    rw [padded, dif_pos h]
    show x _ = x _
    congr 1
    funext a
    match a with
    | ⟨0, _⟩ => exact Fin.ext (by show (b.val - 0) / (0 + 1) = b.val; omega)
    | ⟨1, _⟩ => exact Fin.ext (by show (ch.val - 0) / (0 + 1) = ch.val; omega)
    | ⟨2, _⟩ => exact Fin.ext (by show (r.val - 1) / (0 + 1) = r.val - 1; omega)
    | ⟨3, _⟩ => exact Fin.ext (by show (s.val - 1) / (0 + 1) = s.val - 1; omega)
  · next hin =>
    have h : ¬ ((1 ≤ r.val ∧ r.val ≤ 256) ∧ (1 ≤ s.val ∧ s.val ≤ 256)) := by
      intro h
      apply hin
      intro a
      match a with
      | ⟨0, _⟩ =>
        show 0 ≤ b.val ∧ (b.val - 0) % (0 + 1) = 0 ∧ (b.val - 0) / (0 + 1) < 4
        have := b.isLt; omega
      | ⟨1, _⟩ =>
        show 0 ≤ ch.val ∧ (ch.val - 0) % (0 + 1) = 0 ∧ (ch.val - 0) / (0 + 1) < 16
        have := ch.isLt; omega
      | ⟨2, _⟩ =>
        show 1 ≤ r.val ∧ (r.val - 1) % (0 + 1) = 0 ∧ (r.val - 1) / (0 + 1) < 256
        omega
      | ⟨3, _⟩ =>
        show 1 ≤ s.val ∧ (s.val - 1) % (0 + 1) = 0 ∧ (s.val - 1) / (0 + 1) < 256
        omega
    rw [padded_border _ _ _ h]
    exact hv

/-- The padding value of the reference is the integer zero converted to a real: zero. -/
theorem padval_zero : val_main_call0_v0 (F := Ideal) (Shape.Idx.first Facts₀.h_S_) = 0 := by
  show (((0#32 : BitVec 32).toInt : ℝ) : EReal) = 0
  simp

theorem padval_zero' : val_main_call1_v0 (F := Ideal) (Shape.Idx.first Facts₀.h_S_) = 0 := by
  show (((0#32 : BitVec 32).toInt : ℝ) : EReal) = 0
  simp

/-- The padded first input at `(b, ch, r, s)` is the zero-bordered image `(b, ch)` at `(r, s)`. -/
theorem pad_apply (x : FVec Ideal Batch .f32) (b : Fin 4) (ch : Fin 16) (r s : Fin 258) :
    val_main_v0 (F := Ideal) x (ix4 b ch r s) = padded (plane x b ch) r.val s.val :=
  pad_zero_apply x _ _ _ padval_zero b ch r s

/-- The same for the second input. -/
theorem pad_apply' (x : FVec Ideal Batch .f32) (b : Fin 4) (ch : Fin 16) (r s : Fin 258) :
    val_main_v20 (F := Ideal) x (ix4 b ch r s) = padded (plane x b ch) r.val s.val :=
  pad_zero_apply x _ _ _ padval_zero' b ch r s

/-- Window 0 of the first input, with its unit axis: the bordered image displaced by (0, 0). -/
theorem tap_0 (x : FVec Ideal Batch .f32) (b : Fin 4) (ch : Fin 16) (z : Fin 1) (i j : Fin 256) :
    val_main_v10 (F := Ideal) x (ix5 b ch z i j) = padded (plane x b ch) (0 + i.val) (0 + j.val) := by
  rw [val_main_v10_apply, val_main_v1_apply]
  refine (congrArg (val_main_v0 (F := Ideal) x)
    (show _ = ix4 b ch (⟨0 + i.val, by have := i.isLt; omega⟩ : Fin 258) (⟨0 + j.val, by have := j.isLt; omega⟩ : Fin 258)
      from ?_)).trans (pad_apply x b ch _ _)
  funext a
  match a with
  | ⟨0, _⟩ => rfl
  | ⟨1, _⟩ => rfl
  | ⟨2, _⟩ => exact Fin.ext (by show i.val = 0 + i.val; omega)
  | ⟨3, _⟩ => exact Fin.ext (by show j.val = 0 + j.val; omega)

/-- Window 1 of the first input, with its unit axis: the bordered image displaced by (0, 1). -/
theorem tap_1 (x : FVec Ideal Batch .f32) (b : Fin 4) (ch : Fin 16) (z : Fin 1) (i j : Fin 256) :
    val_main_v11 (F := Ideal) x (ix5 b ch z i j) = padded (plane x b ch) (0 + i.val) (1 + j.val) := by
  rw [val_main_v11_apply, val_main_v2_apply]
  refine (congrArg (val_main_v0 (F := Ideal) x)
    (show _ = ix4 b ch (⟨0 + i.val, by have := i.isLt; omega⟩ : Fin 258) (⟨1 + j.val, by have := j.isLt; omega⟩ : Fin 258)
      from ?_)).trans (pad_apply x b ch _ _)
  funext a
  match a with
  | ⟨0, _⟩ => rfl
  | ⟨1, _⟩ => rfl
  | ⟨2, _⟩ => exact Fin.ext (by show i.val = 0 + i.val; omega)
  | ⟨3, _⟩ => exact Fin.ext (by show 1 + j.val = 1 + j.val; omega)

/-- Window 2 of the first input, with its unit axis: the bordered image displaced by (0, 2). -/
theorem tap_2 (x : FVec Ideal Batch .f32) (b : Fin 4) (ch : Fin 16) (z : Fin 1) (i j : Fin 256) :
    val_main_v12 (F := Ideal) x (ix5 b ch z i j) = padded (plane x b ch) (0 + i.val) (2 + j.val) := by
  rw [val_main_v12_apply, val_main_v3_apply]
  refine (congrArg (val_main_v0 (F := Ideal) x)
    (show _ = ix4 b ch (⟨0 + i.val, by have := i.isLt; omega⟩ : Fin 258) (⟨2 + j.val, by have := j.isLt; omega⟩ : Fin 258)
      from ?_)).trans (pad_apply x b ch _ _)
  funext a
  match a with
  | ⟨0, _⟩ => rfl
  | ⟨1, _⟩ => rfl
  | ⟨2, _⟩ => exact Fin.ext (by show i.val = 0 + i.val; omega)
  | ⟨3, _⟩ => exact Fin.ext (by show 2 + j.val = 2 + j.val; omega)

/-- Window 3 of the first input, with its unit axis: the bordered image displaced by (1, 0). -/
theorem tap_3 (x : FVec Ideal Batch .f32) (b : Fin 4) (ch : Fin 16) (z : Fin 1) (i j : Fin 256) :
    val_main_v13 (F := Ideal) x (ix5 b ch z i j) = padded (plane x b ch) (1 + i.val) (0 + j.val) := by
  rw [val_main_v13_apply, val_main_v4_apply]
  refine (congrArg (val_main_v0 (F := Ideal) x)
    (show _ = ix4 b ch (⟨1 + i.val, by have := i.isLt; omega⟩ : Fin 258) (⟨0 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show j.val = 0 + j.val; omega)

/-- Window 4 of the first input, with its unit axis: the bordered image displaced by (1, 1). -/
theorem tap_4 (x : FVec Ideal Batch .f32) (b : Fin 4) (ch : Fin 16) (z : Fin 1) (i j : Fin 256) :
    val_main_v14 (F := Ideal) x (ix5 b ch z i j) = padded (plane x b ch) (1 + i.val) (1 + j.val) := by
  rw [val_main_v14_apply, val_main_v5_apply]
  refine (congrArg (val_main_v0 (F := Ideal) x)
    (show _ = ix4 b ch (⟨1 + i.val, by have := i.isLt; omega⟩ : Fin 258) (⟨1 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show 1 + j.val = 1 + j.val; omega)

/-- Window 5 of the first input, with its unit axis: the bordered image displaced by (1, 2). -/
theorem tap_5 (x : FVec Ideal Batch .f32) (b : Fin 4) (ch : Fin 16) (z : Fin 1) (i j : Fin 256) :
    val_main_v15 (F := Ideal) x (ix5 b ch z i j) = padded (plane x b ch) (1 + i.val) (2 + j.val) := by
  rw [val_main_v15_apply, val_main_v6_apply]
  refine (congrArg (val_main_v0 (F := Ideal) x)
    (show _ = ix4 b ch (⟨1 + i.val, by have := i.isLt; omega⟩ : Fin 258) (⟨2 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show 2 + j.val = 2 + j.val; omega)

/-- Window 6 of the first input, with its unit axis: the bordered image displaced by (2, 0). -/
theorem tap_6 (x : FVec Ideal Batch .f32) (b : Fin 4) (ch : Fin 16) (z : Fin 1) (i j : Fin 256) :
    val_main_v16 (F := Ideal) x (ix5 b ch z i j) = padded (plane x b ch) (2 + i.val) (0 + j.val) := by
  rw [val_main_v16_apply, val_main_v7_apply]
  refine (congrArg (val_main_v0 (F := Ideal) x)
    (show _ = ix4 b ch (⟨2 + i.val, by have := i.isLt; omega⟩ : Fin 258) (⟨0 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show j.val = 0 + j.val; omega)

/-- Window 7 of the first input, with its unit axis: the bordered image displaced by (2, 1). -/
theorem tap_7 (x : FVec Ideal Batch .f32) (b : Fin 4) (ch : Fin 16) (z : Fin 1) (i j : Fin 256) :
    val_main_v17 (F := Ideal) x (ix5 b ch z i j) = padded (plane x b ch) (2 + i.val) (1 + j.val) := by
  rw [val_main_v17_apply, val_main_v8_apply]
  refine (congrArg (val_main_v0 (F := Ideal) x)
    (show _ = ix4 b ch (⟨2 + i.val, by have := i.isLt; omega⟩ : Fin 258) (⟨1 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show 1 + j.val = 1 + j.val; omega)

/-- Window 8 of the first input, with its unit axis: the bordered image displaced by (2, 2). -/
theorem tap_8 (x : FVec Ideal Batch .f32) (b : Fin 4) (ch : Fin 16) (z : Fin 1) (i j : Fin 256) :
    val_main_v18 (F := Ideal) x (ix5 b ch z i j) = padded (plane x b ch) (2 + i.val) (2 + j.val) := by
  rw [val_main_v18_apply, val_main_v9_apply]
  refine (congrArg (val_main_v0 (F := Ideal) x)
    (show _ = ix4 b ch (⟨2 + i.val, by have := i.isLt; omega⟩ : Fin 258) (⟨2 + j.val, by have := j.isLt; omega⟩ : Fin 258)
      from ?_)).trans (pad_apply x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show 2 + j.val = 2 + j.val; omega)

/-- The stack of the nine windows of the first input at `(b, ch, c, i, j)`: window `c` is the bordered image displaced by
    `(c / 3, c % 3)`, so the entry is the bordered image `(b, ch)` at `(c / 3 + i, c % 3 + j)`. The stack is a concatenation of
    nine pieces of extent one along axis 2, so coordinate `c` on that axis names piece `c`. -/
theorem stack_apply (x : FVec Ideal Batch .f32) (b : Fin 4) (ch : Fin 16) (c : Fin 9) (i j : Fin 256) :
    val_main_v19 (F := Ideal) x (ix5 b ch c i j) = padded (plane x b ch) (c.val / 3 + i.val) (c.val % 3 + j.val) := by
  unfold val_main_v19
  match c with
  | ⟨0, hc⟩ =>
    have e3 : (⟨0, hc⟩ : Fin 9).val / 3 = 0 := by show (0 : Nat) / 3 = 0; decide
    have e4 : (⟨0, hc⟩ : Fin 9).val % 3 = 0 := by show (0 : Nat) % 3 = 0; decide
    rw [e3, e4]
    refine (concatenate_apply_piece (t := S4x16x9x256x256) 2 _ _ (ix5 b ch ⟨0, hc⟩ i j) 0 (by show (0 : Nat) < 9; omega) S4x16x1x256x256
      (val_main_v10 (F := Ideal) x) (by rfl) (by rfl) 0 (by rfl) (ix5 b ch 0 i j) ?_ (by rfl)).trans (tap_0 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨1, hc⟩ =>
    have e3 : (⟨1, hc⟩ : Fin 9).val / 3 = 0 := by show (1 : Nat) / 3 = 0; decide
    have e4 : (⟨1, hc⟩ : Fin 9).val % 3 = 1 := by show (1 : Nat) % 3 = 1; decide
    rw [e3, e4]
    refine (concatenate_apply_piece (t := S4x16x9x256x256) 2 _ _ (ix5 b ch ⟨1, hc⟩ i j) 1 (by show (1 : Nat) < 9; omega) S4x16x1x256x256
      (val_main_v11 (F := Ideal) x) (by rfl) (by rfl) 1 (by rfl) (ix5 b ch 0 i j) ?_ (by rfl)).trans (tap_1 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨2, hc⟩ =>
    have e3 : (⟨2, hc⟩ : Fin 9).val / 3 = 0 := by show (2 : Nat) / 3 = 0; decide
    have e4 : (⟨2, hc⟩ : Fin 9).val % 3 = 2 := by show (2 : Nat) % 3 = 2; decide
    rw [e3, e4]
    refine (concatenate_apply_piece (t := S4x16x9x256x256) 2 _ _ (ix5 b ch ⟨2, hc⟩ i j) 2 (by show (2 : Nat) < 9; omega) S4x16x1x256x256
      (val_main_v12 (F := Ideal) x) (by rfl) (by rfl) 2 (by rfl) (ix5 b ch 0 i j) ?_ (by rfl)).trans (tap_2 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨3, hc⟩ =>
    have e3 : (⟨3, hc⟩ : Fin 9).val / 3 = 1 := by show (3 : Nat) / 3 = 1; decide
    have e4 : (⟨3, hc⟩ : Fin 9).val % 3 = 0 := by show (3 : Nat) % 3 = 0; decide
    rw [e3, e4]
    refine (concatenate_apply_piece (t := S4x16x9x256x256) 2 _ _ (ix5 b ch ⟨3, hc⟩ i j) 3 (by show (3 : Nat) < 9; omega) S4x16x1x256x256
      (val_main_v13 (F := Ideal) x) (by rfl) (by rfl) 3 (by rfl) (ix5 b ch 0 i j) ?_ (by rfl)).trans (tap_3 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨4, hc⟩ =>
    have e3 : (⟨4, hc⟩ : Fin 9).val / 3 = 1 := by show (4 : Nat) / 3 = 1; decide
    have e4 : (⟨4, hc⟩ : Fin 9).val % 3 = 1 := by show (4 : Nat) % 3 = 1; decide
    rw [e3, e4]
    refine (concatenate_apply_piece (t := S4x16x9x256x256) 2 _ _ (ix5 b ch ⟨4, hc⟩ i j) 4 (by show (4 : Nat) < 9; omega) S4x16x1x256x256
      (val_main_v14 (F := Ideal) x) (by rfl) (by rfl) 4 (by rfl) (ix5 b ch 0 i j) ?_ (by rfl)).trans (tap_4 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨5, hc⟩ =>
    have e3 : (⟨5, hc⟩ : Fin 9).val / 3 = 1 := by show (5 : Nat) / 3 = 1; decide
    have e4 : (⟨5, hc⟩ : Fin 9).val % 3 = 2 := by show (5 : Nat) % 3 = 2; decide
    rw [e3, e4]
    refine (concatenate_apply_piece (t := S4x16x9x256x256) 2 _ _ (ix5 b ch ⟨5, hc⟩ i j) 5 (by show (5 : Nat) < 9; omega) S4x16x1x256x256
      (val_main_v15 (F := Ideal) x) (by rfl) (by rfl) 5 (by rfl) (ix5 b ch 0 i j) ?_ (by rfl)).trans (tap_5 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨6, hc⟩ =>
    have e3 : (⟨6, hc⟩ : Fin 9).val / 3 = 2 := by show (6 : Nat) / 3 = 2; decide
    have e4 : (⟨6, hc⟩ : Fin 9).val % 3 = 0 := by show (6 : Nat) % 3 = 0; decide
    rw [e3, e4]
    refine (concatenate_apply_piece (t := S4x16x9x256x256) 2 _ _ (ix5 b ch ⟨6, hc⟩ i j) 6 (by show (6 : Nat) < 9; omega) S4x16x1x256x256
      (val_main_v16 (F := Ideal) x) (by rfl) (by rfl) 6 (by rfl) (ix5 b ch 0 i j) ?_ (by rfl)).trans (tap_6 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨7, hc⟩ =>
    have e3 : (⟨7, hc⟩ : Fin 9).val / 3 = 2 := by show (7 : Nat) / 3 = 2; decide
    have e4 : (⟨7, hc⟩ : Fin 9).val % 3 = 1 := by show (7 : Nat) % 3 = 1; decide
    rw [e3, e4]
    refine (concatenate_apply_piece (t := S4x16x9x256x256) 2 _ _ (ix5 b ch ⟨7, hc⟩ i j) 7 (by show (7 : Nat) < 9; omega) S4x16x1x256x256
      (val_main_v17 (F := Ideal) x) (by rfl) (by rfl) 7 (by rfl) (ix5 b ch 0 i j) ?_ (by rfl)).trans (tap_7 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨8, hc⟩ =>
    have e3 : (⟨8, hc⟩ : Fin 9).val / 3 = 2 := by show (8 : Nat) / 3 = 2; decide
    have e4 : (⟨8, hc⟩ : Fin 9).val % 3 = 2 := by show (8 : Nat) % 3 = 2; decide
    rw [e3, e4]
    refine (concatenate_apply_piece (t := S4x16x9x256x256) 2 _ _ (ix5 b ch ⟨8, hc⟩ i j) 8 (by show (8 : Nat) < 9; omega) S4x16x1x256x256
      (val_main_v18 (F := Ideal) x) (by rfl) (by rfl) 8 (by rfl) (ix5 b ch 0 i j) ?_ (by rfl)).trans (tap_8 x b ch 0 i j)
    intro d hd
    match d with
    | ⟨0, _⟩ => rfl
    | ⟨1, _⟩ => rfl
    | ⟨2, _⟩ => exact absurd rfl hd
    | ⟨3, _⟩ => rfl
    | ⟨4, _⟩ => rfl

/-- Window 0 of the second input, with its unit axis: the bordered image displaced by (0, 0). -/
theorem tap'_0 (x : FVec Ideal Batch .f32) (b : Fin 4) (ch : Fin 16) (z : Fin 1) (i j : Fin 256) :
    val_main_v30 (F := Ideal) x (ix5 b ch z i j) = padded (plane x b ch) (0 + i.val) (0 + j.val) := by
  rw [val_main_v30_apply, val_main_v21_apply]
  refine (congrArg (val_main_v20 (F := Ideal) x)
    (show _ = ix4 b ch (⟨0 + i.val, by have := i.isLt; omega⟩ : Fin 258) (⟨0 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show i.val = 0 + i.val; omega)
  | ⟨3, _⟩ => exact Fin.ext (by show j.val = 0 + j.val; omega)

/-- Window 1 of the second input, with its unit axis: the bordered image displaced by (0, 1). -/
theorem tap'_1 (x : FVec Ideal Batch .f32) (b : Fin 4) (ch : Fin 16) (z : Fin 1) (i j : Fin 256) :
    val_main_v31 (F := Ideal) x (ix5 b ch z i j) = padded (plane x b ch) (0 + i.val) (1 + j.val) := by
  rw [val_main_v31_apply, val_main_v22_apply]
  refine (congrArg (val_main_v20 (F := Ideal) x)
    (show _ = ix4 b ch (⟨0 + i.val, by have := i.isLt; omega⟩ : Fin 258) (⟨1 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show i.val = 0 + i.val; omega)
  | ⟨3, _⟩ => exact Fin.ext (by show 1 + j.val = 1 + j.val; omega)

/-- Window 2 of the second input, with its unit axis: the bordered image displaced by (0, 2). -/
theorem tap'_2 (x : FVec Ideal Batch .f32) (b : Fin 4) (ch : Fin 16) (z : Fin 1) (i j : Fin 256) :
    val_main_v32 (F := Ideal) x (ix5 b ch z i j) = padded (plane x b ch) (0 + i.val) (2 + j.val) := by
  rw [val_main_v32_apply, val_main_v23_apply]
  refine (congrArg (val_main_v20 (F := Ideal) x)
    (show _ = ix4 b ch (⟨0 + i.val, by have := i.isLt; omega⟩ : Fin 258) (⟨2 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show i.val = 0 + i.val; omega)
  | ⟨3, _⟩ => exact Fin.ext (by show 2 + j.val = 2 + j.val; omega)

/-- Window 3 of the second input, with its unit axis: the bordered image displaced by (1, 0). -/
theorem tap'_3 (x : FVec Ideal Batch .f32) (b : Fin 4) (ch : Fin 16) (z : Fin 1) (i j : Fin 256) :
    val_main_v33 (F := Ideal) x (ix5 b ch z i j) = padded (plane x b ch) (1 + i.val) (0 + j.val) := by
  rw [val_main_v33_apply, val_main_v24_apply]
  refine (congrArg (val_main_v20 (F := Ideal) x)
    (show _ = ix4 b ch (⟨1 + i.val, by have := i.isLt; omega⟩ : Fin 258) (⟨0 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show j.val = 0 + j.val; omega)

/-- Window 4 of the second input, with its unit axis: the bordered image displaced by (1, 1). -/
theorem tap'_4 (x : FVec Ideal Batch .f32) (b : Fin 4) (ch : Fin 16) (z : Fin 1) (i j : Fin 256) :
    val_main_v34 (F := Ideal) x (ix5 b ch z i j) = padded (plane x b ch) (1 + i.val) (1 + j.val) := by
  rw [val_main_v34_apply, val_main_v25_apply]
  refine (congrArg (val_main_v20 (F := Ideal) x)
    (show _ = ix4 b ch (⟨1 + i.val, by have := i.isLt; omega⟩ : Fin 258) (⟨1 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show 1 + j.val = 1 + j.val; omega)

/-- Window 5 of the second input, with its unit axis: the bordered image displaced by (1, 2). -/
theorem tap'_5 (x : FVec Ideal Batch .f32) (b : Fin 4) (ch : Fin 16) (z : Fin 1) (i j : Fin 256) :
    val_main_v35 (F := Ideal) x (ix5 b ch z i j) = padded (plane x b ch) (1 + i.val) (2 + j.val) := by
  rw [val_main_v35_apply, val_main_v26_apply]
  refine (congrArg (val_main_v20 (F := Ideal) x)
    (show _ = ix4 b ch (⟨1 + i.val, by have := i.isLt; omega⟩ : Fin 258) (⟨2 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 1 + i.val = 1 + i.val; omega)
  | ⟨3, _⟩ => exact Fin.ext (by show 2 + j.val = 2 + j.val; omega)

/-- Window 6 of the second input, with its unit axis: the bordered image displaced by (2, 0). -/
theorem tap'_6 (x : FVec Ideal Batch .f32) (b : Fin 4) (ch : Fin 16) (z : Fin 1) (i j : Fin 256) :
    val_main_v36 (F := Ideal) x (ix5 b ch z i j) = padded (plane x b ch) (2 + i.val) (0 + j.val) := by
  rw [val_main_v36_apply, val_main_v27_apply]
  refine (congrArg (val_main_v20 (F := Ideal) x)
    (show _ = ix4 b ch (⟨2 + i.val, by have := i.isLt; omega⟩ : Fin 258) (⟨0 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show j.val = 0 + j.val; omega)

/-- Window 7 of the second input, with its unit axis: the bordered image displaced by (2, 1). -/
theorem tap'_7 (x : FVec Ideal Batch .f32) (b : Fin 4) (ch : Fin 16) (z : Fin 1) (i j : Fin 256) :
    val_main_v37 (F := Ideal) x (ix5 b ch z i j) = padded (plane x b ch) (2 + i.val) (1 + j.val) := by
  rw [val_main_v37_apply, val_main_v28_apply]
  refine (congrArg (val_main_v20 (F := Ideal) x)
    (show _ = ix4 b ch (⟨2 + i.val, by have := i.isLt; omega⟩ : Fin 258) (⟨1 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show 1 + j.val = 1 + j.val; omega)

/-- Window 8 of the second input, with its unit axis: the bordered image displaced by (2, 2). -/
theorem tap'_8 (x : FVec Ideal Batch .f32) (b : Fin 4) (ch : Fin 16) (z : Fin 1) (i j : Fin 256) :
    val_main_v38 (F := Ideal) x (ix5 b ch z i j) = padded (plane x b ch) (2 + i.val) (2 + j.val) := by
  rw [val_main_v38_apply, val_main_v29_apply]
  refine (congrArg (val_main_v20 (F := Ideal) x)
    (show _ = ix4 b ch (⟨2 + i.val, by have := i.isLt; omega⟩ : Fin 258) (⟨2 + j.val, by have := j.isLt; omega⟩ : Fin 258)
      from ?_)).trans (pad_apply' x b ch _ _)
  funext a
  match a with
  | ⟨0, _⟩ => rfl
  | ⟨1, _⟩ => rfl
  | ⟨2, _⟩ => exact Fin.ext (by show 2 + i.val = 2 + i.val; omega)
  | ⟨3, _⟩ => exact Fin.ext (by show 2 + j.val = 2 + j.val; omega)

/-- The stack of the nine windows of the second input at `(b, ch, c, i, j)`: window `c` is the bordered image displaced by
    `(c / 3, c % 3)`, so the entry is the bordered image `(b, ch)` at `(c / 3 + i, c % 3 + j)`. The stack is a concatenation of
    nine pieces of extent one along axis 2, so coordinate `c` on that axis names piece `c`. -/
theorem stack_apply' (x : FVec Ideal Batch .f32) (b : Fin 4) (ch : Fin 16) (c : Fin 9) (i j : Fin 256) :
    val_main_v39 (F := Ideal) x (ix5 b ch c i j) = padded (plane x b ch) (c.val / 3 + i.val) (c.val % 3 + j.val) := by
  unfold val_main_v39
  match c with
  | ⟨0, hc⟩ =>
    have e3 : (⟨0, hc⟩ : Fin 9).val / 3 = 0 := by show (0 : Nat) / 3 = 0; decide
    have e4 : (⟨0, hc⟩ : Fin 9).val % 3 = 0 := by show (0 : Nat) % 3 = 0; decide
    rw [e3, e4]
    refine (concatenate_apply_piece (t := S4x16x9x256x256) 2 _ _ (ix5 b ch ⟨0, hc⟩ i j) 0 (by show (0 : Nat) < 9; omega) S4x16x1x256x256
      (val_main_v30 (F := Ideal) x) (by rfl) (by rfl) 0 (by rfl) (ix5 b ch 0 i j) ?_ (by rfl)).trans (tap'_0 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨1, hc⟩ =>
    have e3 : (⟨1, hc⟩ : Fin 9).val / 3 = 0 := by show (1 : Nat) / 3 = 0; decide
    have e4 : (⟨1, hc⟩ : Fin 9).val % 3 = 1 := by show (1 : Nat) % 3 = 1; decide
    rw [e3, e4]
    refine (concatenate_apply_piece (t := S4x16x9x256x256) 2 _ _ (ix5 b ch ⟨1, hc⟩ i j) 1 (by show (1 : Nat) < 9; omega) S4x16x1x256x256
      (val_main_v31 (F := Ideal) x) (by rfl) (by rfl) 1 (by rfl) (ix5 b ch 0 i j) ?_ (by rfl)).trans (tap'_1 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨2, hc⟩ =>
    have e3 : (⟨2, hc⟩ : Fin 9).val / 3 = 0 := by show (2 : Nat) / 3 = 0; decide
    have e4 : (⟨2, hc⟩ : Fin 9).val % 3 = 2 := by show (2 : Nat) % 3 = 2; decide
    rw [e3, e4]
    refine (concatenate_apply_piece (t := S4x16x9x256x256) 2 _ _ (ix5 b ch ⟨2, hc⟩ i j) 2 (by show (2 : Nat) < 9; omega) S4x16x1x256x256
      (val_main_v32 (F := Ideal) x) (by rfl) (by rfl) 2 (by rfl) (ix5 b ch 0 i j) ?_ (by rfl)).trans (tap'_2 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨3, hc⟩ =>
    have e3 : (⟨3, hc⟩ : Fin 9).val / 3 = 1 := by show (3 : Nat) / 3 = 1; decide
    have e4 : (⟨3, hc⟩ : Fin 9).val % 3 = 0 := by show (3 : Nat) % 3 = 0; decide
    rw [e3, e4]
    refine (concatenate_apply_piece (t := S4x16x9x256x256) 2 _ _ (ix5 b ch ⟨3, hc⟩ i j) 3 (by show (3 : Nat) < 9; omega) S4x16x1x256x256
      (val_main_v33 (F := Ideal) x) (by rfl) (by rfl) 3 (by rfl) (ix5 b ch 0 i j) ?_ (by rfl)).trans (tap'_3 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨4, hc⟩ =>
    have e3 : (⟨4, hc⟩ : Fin 9).val / 3 = 1 := by show (4 : Nat) / 3 = 1; decide
    have e4 : (⟨4, hc⟩ : Fin 9).val % 3 = 1 := by show (4 : Nat) % 3 = 1; decide
    rw [e3, e4]
    refine (concatenate_apply_piece (t := S4x16x9x256x256) 2 _ _ (ix5 b ch ⟨4, hc⟩ i j) 4 (by show (4 : Nat) < 9; omega) S4x16x1x256x256
      (val_main_v34 (F := Ideal) x) (by rfl) (by rfl) 4 (by rfl) (ix5 b ch 0 i j) ?_ (by rfl)).trans (tap'_4 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨5, hc⟩ =>
    have e3 : (⟨5, hc⟩ : Fin 9).val / 3 = 1 := by show (5 : Nat) / 3 = 1; decide
    have e4 : (⟨5, hc⟩ : Fin 9).val % 3 = 2 := by show (5 : Nat) % 3 = 2; decide
    rw [e3, e4]
    refine (concatenate_apply_piece (t := S4x16x9x256x256) 2 _ _ (ix5 b ch ⟨5, hc⟩ i j) 5 (by show (5 : Nat) < 9; omega) S4x16x1x256x256
      (val_main_v35 (F := Ideal) x) (by rfl) (by rfl) 5 (by rfl) (ix5 b ch 0 i j) ?_ (by rfl)).trans (tap'_5 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨6, hc⟩ =>
    have e3 : (⟨6, hc⟩ : Fin 9).val / 3 = 2 := by show (6 : Nat) / 3 = 2; decide
    have e4 : (⟨6, hc⟩ : Fin 9).val % 3 = 0 := by show (6 : Nat) % 3 = 0; decide
    rw [e3, e4]
    refine (concatenate_apply_piece (t := S4x16x9x256x256) 2 _ _ (ix5 b ch ⟨6, hc⟩ i j) 6 (by show (6 : Nat) < 9; omega) S4x16x1x256x256
      (val_main_v36 (F := Ideal) x) (by rfl) (by rfl) 6 (by rfl) (ix5 b ch 0 i j) ?_ (by rfl)).trans (tap'_6 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨7, hc⟩ =>
    have e3 : (⟨7, hc⟩ : Fin 9).val / 3 = 2 := by show (7 : Nat) / 3 = 2; decide
    have e4 : (⟨7, hc⟩ : Fin 9).val % 3 = 1 := by show (7 : Nat) % 3 = 1; decide
    rw [e3, e4]
    refine (concatenate_apply_piece (t := S4x16x9x256x256) 2 _ _ (ix5 b ch ⟨7, hc⟩ i j) 7 (by show (7 : Nat) < 9; omega) S4x16x1x256x256
      (val_main_v37 (F := Ideal) x) (by rfl) (by rfl) 7 (by rfl) (ix5 b ch 0 i j) ?_ (by rfl)).trans (tap'_7 x b ch 0 i j)
    intro d hd
    match d with
    | ⟨0, _⟩ => rfl
    | ⟨1, _⟩ => rfl
    | ⟨2, _⟩ => exact absurd rfl hd
    | ⟨3, _⟩ => rfl
    | ⟨4, _⟩ => rfl
  | ⟨8, hc⟩ =>
    have e3 : (⟨8, hc⟩ : Fin 9).val / 3 = 2 := by show (8 : Nat) / 3 = 2; decide
    have e4 : (⟨8, hc⟩ : Fin 9).val % 3 = 2 := by show (8 : Nat) % 3 = 2; decide
    rw [e3, e4]
    refine (concatenate_apply_piece (t := S4x16x9x256x256) 2 _ _ (ix5 b ch ⟨8, hc⟩ i j) 8 (by show (8 : Nat) < 9; omega) S4x16x1x256x256
      (val_main_v38 (F := Ideal) x) (by rfl) (by rfl) 8 (by rfl) (ix5 b ch 0 i j) ?_ (by rfl)).trans (tap'_8 x b ch 0 i j)
    intro d hd
    match d with
    | ⟨0, _⟩ => rfl
    | ⟨1, _⟩ => rfl
    | ⟨2, _⟩ => exact absurd rfl hd
    | ⟨3, _⟩ => rfl
    | ⟨4, _⟩ => rfl

end Cert.Unfold3.Ref

end
-- ==== Proof.RefIsG.lean ====
/-
  The reference computes the specification's function.

  The reference stacks the nine displaced slices of the zero-bordered input along a new axis, so the
  stack at (b, ch, c, i, j) is the bordered image (b, ch) at (c / 3 + i, c % 3 + j). It multiplies the
  stack by its own centre slice (c = 4, which is the image itself) spread over the nine taps, and then
  writes the centre slice back at c = 4. So the result at c = 4 is the pixel, and at c ≠ 4 the
  neighbour times the pixel.
-/
import proofs.«101597_j76270029242959_2_alg».proof.Proof.Gen.ReferenceIdeal.Read
import proofs.«101597_j76270029242959_2_alg».proof.Proof.RefScatter
import proofs.«101597_j76270029242959_2_alg».proof.Proof.RefStack
import proofs.«101597_j76270029242959_2_alg».proof.Proof.Unfold3Spec
import Idealize.ShloMosaic.Lib.ValueIdx

noncomputable section

namespace Cert.Unfold3.Ref

open Idealize.ShloMosaic Idealize.ShloMosaic.ValueIdx Cert.ReferenceIdeal Cert.ReferenceIdeal.Read Cert.Unfold3

/-- The one scatter index is 4, for both results. -/
theorem idx_four (k : S1.Idx) : val_main_v46 (F := Ideal) k = 4#32 := by
  rw [val_main_v46_apply]; rfl
theorem idx_four' (k : S1.Idx) : val_main_v52 (F := Ideal) k = 4#32 := by
  rw [val_main_v52_apply]; rfl

/-- The centre slice, with its unit axis dropped, read at `(b, ch, i, j)`, reads the stack at `(b, ch, 4, i, j)`. -/
theorem centre_idx (b : Fin 4) (ch : Fin 16) (i j : Fin 256) :
    idx_main_v44 (idx_main_v45 (ix4 b ch i j)) = ix5 b ch (⟨4, by decide⟩ : Fin 9) i j := by
  have hb := b.isLt; have hch := ch.isLt; have hi := i.isLt; have hj := j.isLt
  funext a
  apply Fin.ext
  match a with
  | ⟨0, _⟩ => show (((b.val * 16 + ch.val) * 256 + i.val) * 256 + j.val) / 1048576 = b.val; omega
  | ⟨1, _⟩ => show (((b.val * 16 + ch.val) * 256 + i.val) * 256 + j.val) / 65536 % 16 = ch.val; omega
  | ⟨2, _⟩ => show 4 + 0 = 4; rfl
  | ⟨3, _⟩ => show (((b.val * 16 + ch.val) * 256 + i.val) * 256 + j.val) / 256 % 256 = i.val; omega
  | ⟨4, _⟩ => show (((b.val * 16 + ch.val) * 256 + i.val) * 256 + j.val) % 256 = j.val; omega
theorem centre_idx' (b : Fin 4) (ch : Fin 16) (i j : Fin 256) :
    idx_main_v50 (idx_main_v51 (ix4 b ch i j)) = ix5 b ch (⟨4, by decide⟩ : Fin 9) i j := by
  have hb := b.isLt; have hch := ch.isLt; have hi := i.isLt; have hj := j.isLt
  funext a
  apply Fin.ext
  match a with
  | ⟨0, _⟩ => show (((b.val * 16 + ch.val) * 256 + i.val) * 256 + j.val) / 1048576 = b.val; omega
  | ⟨1, _⟩ => show (((b.val * 16 + ch.val) * 256 + i.val) * 256 + j.val) / 65536 % 16 = ch.val; omega
  | ⟨2, _⟩ => show 4 + 0 = 4; rfl
  | ⟨3, _⟩ => show (((b.val * 16 + ch.val) * 256 + i.val) * 256 + j.val) / 256 % 256 = i.val; omega
  | ⟨4, _⟩ => show (((b.val * 16 + ch.val) * 256 + i.val) * 256 + j.val) % 256 = j.val; omega

/-- The centre slice spread over the nine taps, read at `(b, ch, c, i, j)`, reads the stack at `(b, ch, 4, i, j)`. -/
theorem spread_idx (b : Fin 4) (ch : Fin 16) (c : Fin 9) (i j : Fin 256) :
    idx_main_v40 (idx_main_v42 (ix5 b ch c i j)) = ix5 b ch (⟨4, by decide⟩ : Fin 9) i j := by
  funext a
  apply Fin.ext
  match a with
  | ⟨0, _⟩ => rfl
  | ⟨1, _⟩ => rfl
  | ⟨2, _⟩ => rfl
  | ⟨3, _⟩ => rfl
  | ⟨4, _⟩ => rfl
theorem spread_idx' (b : Fin 4) (ch : Fin 16) (c : Fin 9) (i j : Fin 256) :
    idx_main_v41 (idx_main_v48 (ix5 b ch c i j)) = ix5 b ch (⟨4, by decide⟩ : Fin 9) i j := by
  funext a
  apply Fin.ext
  match a with
  | ⟨0, _⟩ => rfl
  | ⟨1, _⟩ => rfl
  | ⟨2, _⟩ => rfl
  | ⟨3, _⟩ => rfl
  | ⟨4, _⟩ => rfl

/-- The stack's centre tap is the image. -/
theorem stack_centre (x : FVec Ideal Batch .f32) (b : Fin 4) (ch : Fin 16) (i j : Fin 256) :
    val_main_v19 (F := Ideal) x (ix5 b ch (⟨4, by decide⟩ : Fin 9) i j) = plane x b ch (ix2 i j) := by
  rw [stack_apply]
  exact padded_eq _ _ _ i j (by show 4 / 3 + i.val = i.val + 1; omega) (by show 4 % 3 + j.val = j.val + 1; omega)
theorem stack_centre' (x : FVec Ideal Batch .f32) (b : Fin 4) (ch : Fin 16) (i j : Fin 256) :
    val_main_v39 (F := Ideal) x (ix5 b ch (⟨4, by decide⟩ : Fin 9) i j) = plane x b ch (ix2 i j) := by
  rw [stack_apply']
  exact padded_eq _ _ _ i j (by show 4 / 3 + i.val = i.val + 1; omega) (by show 4 % 3 + j.val = j.val + 1; omega)

/-- The reference's first result is the specification's function of its first argument. -/
theorem ref_is_G (x : FVec Ideal Batch .f32) : val_main_v47 (F := Ideal) x = G x := by
  funext y
  obtain ⟨b, ch, c, i, j, rfl⟩ : ∃ (b : Fin 4) (ch : Fin 16) (c : Fin 9) (i j : Fin 256), y = ix5 b ch c i j :=
    ⟨y 0, y 1, y 2, y 3, y 4, eq_ix5 y⟩
  unfold val_main_v47
  rw [scatter_centre _ _ idx_four _ b ch c i j, G_apply]
  unfold tapVal
  by_cases hc : c.val = 4
  · rw [if_pos hc, if_pos hc, val_main_v45_apply, val_main_v44_apply, centre_idx, stack_centre]
  · rw [if_neg hc, if_neg hc, val_main_v43_apply, val_main_v42_apply, val_main_v40_apply, spread_idx, stack_centre, stack_apply]
    rfl

/-- The reference's second result is the specification's function of its second argument. -/
theorem ref_is_G' (x : FVec Ideal Batch .f32) : val_main_v53 (F := Ideal) x = G x := by
  funext y
  obtain ⟨b, ch, c, i, j, rfl⟩ : ∃ (b : Fin 4) (ch : Fin 16) (c : Fin 9) (i j : Fin 256), y = ix5 b ch c i j :=
    ⟨y 0, y 1, y 2, y 3, y 4, eq_ix5 y⟩
  unfold val_main_v53
  rw [scatter_centre _ _ idx_four' _ b ch c i j, G_apply]
  unfold tapVal
  by_cases hc : c.val = 4
  · rw [if_pos hc, if_pos hc, val_main_v51_apply, val_main_v50_apply, centre_idx', stack_centre']
  · rw [if_neg hc, if_neg hc, val_main_v49_apply, val_main_v48_apply, val_main_v41_apply, spread_idx', stack_centre', stack_apply']
    rfl

end Cert.Unfold3.Ref

end
-- ==== Proof.lean ====
/-
  The certificate of a 3 × 3 unfold with centre multiplication.

  For each of the 4 × 16 images v of a batch, and for each of the nine displacements (di, dj) with
  di, dj ∈ {-1, 0, 1}, numbered c = 3 (di + 1) + (dj + 1), both programs produce the image's
  neighbour displaced by (di, dj) — zero where the neighbour falls off the image — multiplied by
  the image itself, except at the centre c = 4, where they produce the image unchanged. They do this
  for two independent batches.

  The kernel builds each neighbour by moving the image one row and then one column with zero fill,
  multiplies, and stores the nine results of each image side by side, four images per grid point. The
  reference pads the batch with a border of zeros, stacks the nine displaced slices, multiplies the
  stack by its centre slice, and writes the centre slice back in place. Both are the one function
  `Cert.Unfold3.G` of each argument (Unfold3Spec.lean): the kernel's by KernelRun.lean, the reference's
  by RefIsG.lean. The two sides are the same product in the same order, so no law of the extended reals
  beyond reading the two programs is needed, and finiteness of the inputs is not used.

  The kernel and its idealization differ in nothing (the ledger is empty); the three frames are the
  generated ones, the reference's being its generated run with the results dropped.
-/
import proofs.«101597_j76270029242959_2_alg».proof.Defs
import proofs.«101597_j76270029242959_2_alg».proof.Proof.Gen.Kernel
import proofs.«101597_j76270029242959_2_alg».proof.Proof.Gen.Kernel.Frame
import proofs.«101597_j76270029242959_2_alg».proof.Proof.Gen.KernelIdeal
import proofs.«101597_j76270029242959_2_alg».proof.Proof.Gen.KernelIdeal.Frame
import proofs.«101597_j76270029242959_2_alg».proof.Proof.Gen.ReferenceIdeal
import proofs.«101597_j76270029242959_2_alg».proof.Proof.Gen.ReferenceIdeal.Run
import proofs.«101597_j76270029242959_2_alg».proof.Proof.Gen.ReferenceIdeal.Read
import proofs.«101597_j76270029242959_2_alg».proof.Proof.Gen.Pre_finite_inputs
import proofs.«101597_j76270029242959_2_alg».proof.Proof.KernelRun
import proofs.«101597_j76270029242959_2_alg».proof.Proof.RefIsG
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with both results at the unfold-and-multiply of the arguments, which agree. -/
theorem algebraic : Cert.algebraic_KernelIdeal_ReferenceIdeal := by
  intro m ρ m' ρ' _ hagree
  refine ⟨fun c => Cert.Unfold3.G (m ((c.tc : Thread Cert.KernelIdeal.nD Cert.KernelIdeal.τ).loc Cert.KernelIdeal.main_arg0)),
    fun c => Cert.Unfold3.G (m ((c.tc : Thread Cert.KernelIdeal.nD Cert.KernelIdeal.τ).loc Cert.KernelIdeal.main_arg1)),
    Cert.Unfold3.Kernel.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v47_eq, Cert.Unfold3.Ref.ref_is_G, (hagree c).1]
  · rw [(h c).2.1, Cert.ReferenceIdeal.Read.val_main_v53_eq, Cert.Unfold3.Ref.ref_is_G', (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
